-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S2x16x2048x64 : Shape := ⟨4, ![2, 16, 2048, 64]⟩
abbrev S2x16x64x2048 : Shape := ⟨4, ![2, 16, 64, 2048]⟩
abbrev S32x2048x64 : Shape := ⟨3, ![32, 2048, 64]⟩
abbrev S32x64x2048 : Shape := ⟨3, ![32, 64, 2048]⟩
abbrev S1x1024x64 : Shape := ⟨3, ![1, 1024, 64]⟩
abbrev S1x64x2048 : Shape := ⟨3, ![1, 64, 2048]⟩
abbrev S1x2048x64 : Shape := ⟨3, ![1, 2048, 64]⟩
abbrev S1024x64 : Shape := ⟨2, ![1024, 64]⟩
abbrev S64x2048 : Shape := ⟨2, ![64, 2048]⟩
abbrev S1024x2048 : Shape := ⟨2, ![1024, 2048]⟩
abbrev S1024x1 : Shape := ⟨2, ![1024, 1]⟩
abbrev S2048x64 : Shape := ⟨2, ![2048, 64]⟩

abbrev nBuf : Space → Nat
  | .hbm => 45
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S4096x1024, .bf16⟩
  | .hbm, ⟨24, _⟩ => ⟨S2x2048x1024, .bf16⟩
  | .hbm, ⟨25, _⟩ => ⟨S1x1024, .f32⟩
  | .hbm, ⟨26, _⟩ => ⟨S4096x1024, .bf16⟩
  | .hbm, ⟨27, _⟩ => ⟨S2x2048x1024, .bf16⟩
  | .hbm, ⟨28, _⟩ => ⟨S1x1024, .f32⟩
  | .hbm, ⟨29, _⟩ => ⟨S4096x1024, .bf16⟩
  | .hbm, ⟨30, _⟩ => ⟨S2x2048x1024, .bf16⟩
  | .hbm, ⟨31, _⟩ => ⟨S2x16x2048x64, .bf16⟩
  | .hbm, ⟨32, _⟩ => ⟨S2x16x2048x64, .bf16⟩
  | .hbm, ⟨33, _⟩ => ⟨S2x16x2048x64, .bf16⟩
  | .hbm, ⟨34, _⟩ => ⟨S2x16x64x2048, .bf16⟩
  | .hbm, ⟨35, _⟩ => ⟨S32x2048x64, .bf16⟩
  | .hbm, ⟨36, _⟩ => ⟨S32x64x2048, .bf16⟩
  | .hbm, ⟨37, _⟩ => ⟨S32x2048x64, .bf16⟩
  | .hbm, ⟨38, _⟩ => ⟨S32x2048x64, .bf16⟩
  | .hbm, ⟨39, _⟩ => ⟨S2x16x2048x64, .bf16⟩
  | .hbm, ⟨40, _⟩ => ⟨S2x2048x1024, .bf16⟩
  | .hbm, ⟨41, _⟩ => ⟨S4096x1024, .bf16⟩
  | .hbm, ⟨42, _⟩ => ⟨S1x1024, .f32⟩
  | .hbm, ⟨43, _⟩ => ⟨S4096x1024, .f32⟩
  | .hbm, ⟨44, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x64x2048, .bf16⟩
  | .local _ .vmem, ⟨21, _⟩ => ⟨S1x64x2048, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x1024x64, .bf16⟩
  | .local _ .vmem, ⟨25, _⟩ => ⟨S1x1024x64, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![32, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  shapeCasts_S2x2048x1024_S2x16x2048x64 : S2x2048x1024.ShapeCasts S2x16x2048x64
  shapeCasts_S2x16x2048x64_S2x16x64x2048 : S2x16x2048x64.ShapeCasts S2x16x64x2048
  shapeCasts_S2x16x2048x64_S32x2048x64 : S2x16x2048x64.ShapeCasts S32x2048x64
  shapeCasts_S2x16x64x2048_S32x64x2048 : S2x16x64x2048.ShapeCasts S32x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  reduces_S1024x2048_S1024 : S1024x2048.Reduces [1] S1024
  shapeCasts_S1024_S1024x1 : S1024.ShapeCasts S1024x1
  broadcasts_S1024x1_S1024x2048 : S1024x1.Broadcasts S1024x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  shapeCasts_S2x16x2048x64_S2x2048x1024 : S2x16x2048x64.ShapeCasts S2x2048x1024
  dot_S1024x1024_S1024x1024_S1024x1024_1_0_0_1_n_n_wf : DotDims.WF S1024x1024 S1024x1024 S1024x1024 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S32x2048x64.size a
  hwx3_0 : ∀ i : grid3.Coords, EltTy.bits .bf16 = 32 ∨ (Rect.block (s := S32x2048x64) S1x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x2048.size a ≤ S32x64x2048.size a
  hwx3_1 : ∀ i : grid3.Coords, EltTy.bits .bf16 = 32 ∨ (Rect.block (s := S32x64x2048) S1x64x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S32x2048x64.size a
  hwx3_3 : ∀ i : grid3.Coords, EltTy.bits .bf16 = 32 ∨ (Rect.block (s := S32x2048x64) S1x1024x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1x64x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x16x2048x64, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x16x2048x64, .f32⟩
  | .hbm, ⟨26, _⟩ => ⟨S2x16x64x2048, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x1024, .f32⟩
  | .hbm, ⟨47, _⟩ => ⟨S2x2048x1024, .f32⟩
  | .hbm, ⟨48, _⟩ => ⟨S1x1x1024, .f32⟩
  | .hbm, ⟨49, _⟩ => ⟨S2x2048x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x16x2048x64 : S2x2048x1024.ShapeCasts S2x16x2048x64
  shapeCasts_S2x16x2048x64_S2x16x64x2048 : S2x16x2048x64.ShapeCasts S2x16x64x2048
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  shapeCasts_S2x16x2048x64_S2x2048x1024 : S2x16x2048x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel program's run, with EVERY unscoped buffer named at the end.

  @main is eleven segments: six stretches of host operations and five kernel regions between them.  The buffer
  contents at each boundary are a fold through the program: a host stretch applies its operations, a region
  leaves each of its arrays at what its grid points wrote back and every other buffer as it found it.  The run
  below says that every weakly fair execution terminates, nothing faulting, and that the final memory holds, at every
  unscoped buffer, the last boundary's contents — in particular at the result buffer, which the frame claim alone
  does not mention.
-/
import proofs.«164350_j43611097924070_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the segments gives it. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

end Cert.KernelIdeal.Whole

end
-- ==== Proof.Fold.lean ====
/-
  The fold through @main, read at the buffers the regions load from and at the result.

  Between the regions @main only re-lays arrays: row-major reshapes, the transposition of each weight matrix and its
  change of float format, and the bias vectors as one-row matrices.  So each array a region loads is a chain of such
  re-layings of either an argument array or an earlier region's output array, and the result is a reshape of the last
  region's output.
-/
import proofs.«164350_j43611097924070_2_alg».proof.Proof.Gen.KernelIdeal.Frame
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The first projection's output array, as its region leaves it. -/
abbrev Y0 : Buf (Elt Ideal) ((c : Thread nD τ).loc main_v12) := (dat0 (V1 m ρ) c).arrAt 3 cfg0.N
/-- The second projection's output array. -/
abbrev Y1 : Buf (Elt Ideal) ((c : Thread nD τ).loc main_v15) := (dat1 (V3 m ρ) c).arrAt 3 cfg1.N
/-- The third projection's output array. -/
abbrev Y2 : Buf (Elt Ideal) ((c : Thread nD τ).loc main_v18) := (dat2 (V5 m ρ) c).arrAt 3 cfg2.N
/-- The attention region's output array. -/
abbrev Y3 : Buf (Elt Ideal) ((c : Thread nD τ).loc main_v27) := (dat3 (V7 m ρ) c).arrAt 3 cfg3.N
/-- The last projection's output array. -/
abbrev Y4 : Buf (Elt Ideal) ((c : Thread nD τ).loc main_v32) := (dat4 (V9 m ρ) c).arrAt 3 cfg4.N

/-! ## Each buffer's contents at each boundary it is carried through: `atK_b` is boundary K's contents at buffer b (boundaries 1 to 5) -/

theorem at1_main_v0 : W1 m ρ c (Proc.devRef .tc main_v0) = shapeCast _ (m ((c : Thread nD τ).loc main_arg0)) shapeCasts_S2x2048x1024_S4096x1024 :=
  by
  show StableHlo.after hostOps0 (W0 m ρ c) (Proc.devRef .tc main_v0) = _
  after_results <;> rfl
theorem at1_main_v1 : W1 m ρ c (Proc.devRef .tc main_v1) = shapeCast _ (m ((c : Thread nD τ).loc main_arg1)) shapeCasts_S2x2048x1024_S4096x1024 :=
  by
  show StableHlo.after hostOps0 (W0 m ρ c) (Proc.devRef .tc main_v1) = _
  after_results <;> rfl
theorem at1_main_v2 : W1 m ρ c (Proc.devRef .tc main_v2) = shapeCast _ (m ((c : Thread nD τ).loc main_arg2)) shapeCasts_S2x2048x1024_S4096x1024 :=
  by
  show StableHlo.after hostOps0 (W0 m ρ c) (Proc.devRef .tc main_v2) = _
  after_results <;> rfl
theorem at1_main_v4 : W1 m ρ c (Proc.devRef .tc main_v4) = truncf (F := Ideal) .bf16 (transpose S1024x1024 [1, 0] (m ((c : Thread nD τ).loc main_arg3)) transposes_S1024x1024_S1024x1024_1_0) bitsLt_bf16_f32 :=
  by
  show StableHlo.after hostOps0 (W0 m ρ c) (Proc.devRef .tc main_v4) = _
  after_results <;> rfl
theorem at1_main_v6 : W1 m ρ c (Proc.devRef .tc main_v6) = truncf (F := Ideal) .bf16 (transpose S1024x1024 [1, 0] (m ((c : Thread nD τ).loc main_arg5)) transposes_S1024x1024_S1024x1024_1_0) bitsLt_bf16_f32 :=
  by
  show StableHlo.after hostOps0 (W0 m ρ c) (Proc.devRef .tc main_v6) = _
  after_results <;> rfl
theorem at1_main_v8 : W1 m ρ c (Proc.devRef .tc main_v8) = truncf (F := Ideal) .bf16 (transpose S1024x1024 [1, 0] (m ((c : Thread nD τ).loc main_arg7)) transposes_S1024x1024_S1024x1024_1_0) bitsLt_bf16_f32 :=
  by
  show StableHlo.after hostOps0 (W0 m ρ c) (Proc.devRef .tc main_v8) = _
  after_results <;> rfl
theorem at1_main_v10 : W1 m ρ c (Proc.devRef .tc main_v10) = truncf (F := Ideal) .bf16 (transpose S1024x1024 [1, 0] (m ((c : Thread nD τ).loc main_arg9)) transposes_S1024x1024_S1024x1024_1_0) bitsLt_bf16_f32 :=
  by
  show StableHlo.after hostOps0 (W0 m ρ c) (Proc.devRef .tc main_v10) = _
  after_results <;> rfl
theorem at1_main_v11 : W1 m ρ c (Proc.devRef .tc main_v11) = shapeCast _ (m ((c : Thread nD τ).loc main_arg4)) shapeCasts_S1024_S1x1024 :=
  by
  show StableHlo.after hostOps0 (W0 m ρ c) (Proc.devRef .tc main_v11) = _
  after_results <;> rfl
theorem at1_main_arg6 : W1 m ρ c (Proc.devRef .tc main_arg6) = (m ((c : Thread nD τ).loc main_arg6)) :=
  by
  show StableHlo.after hostOps0 (W0 m ρ c) (Proc.devRef .tc main_arg6) = _
  after_results <;> rfl
theorem at1_main_arg8 : W1 m ρ c (Proc.devRef .tc main_arg8) = (m ((c : Thread nD τ).loc main_arg8)) :=
  by
  show StableHlo.after hostOps0 (W0 m ρ c) (Proc.devRef .tc main_arg8) = _
  after_results <;> rfl
theorem at1_main_arg10 : W1 m ρ c (Proc.devRef .tc main_arg10) = (m ((c : Thread nD τ).loc main_arg10)) :=
  by
  show StableHlo.after hostOps0 (W0 m ρ c) (Proc.devRef .tc main_arg10) = _
  after_results <;> rfl
theorem at2_main_v1 : W2 m ρ c (Proc.devRef .tc main_v1) = shapeCast _ (m ((c : Thread nD τ).loc main_arg1)) shapeCasts_S2x2048x1024_S4096x1024 :=
  (W2_of_ne m ρ c main_v1 (by decide)).trans (at1_main_v1 m ρ c)
theorem at3_main_v1 : W3 m ρ c (Proc.devRef .tc main_v1) = shapeCast _ (m ((c : Thread nD τ).loc main_arg1)) shapeCasts_S2x2048x1024_S4096x1024 :=
  by
  show StableHlo.after hostOps1 (W2 m ρ c) (Proc.devRef .tc main_v1) = _
  after_results
  exact at2_main_v1 m ρ c
theorem at2_main_v6 : W2 m ρ c (Proc.devRef .tc main_v6) = truncf (F := Ideal) .bf16 (transpose S1024x1024 [1, 0] (m ((c : Thread nD τ).loc main_arg5)) transposes_S1024x1024_S1024x1024_1_0) bitsLt_bf16_f32 :=
  (W2_of_ne m ρ c main_v6 (by decide)).trans (at1_main_v6 m ρ c)
theorem at3_main_v6 : W3 m ρ c (Proc.devRef .tc main_v6) = truncf (F := Ideal) .bf16 (transpose S1024x1024 [1, 0] (m ((c : Thread nD τ).loc main_arg5)) transposes_S1024x1024_S1024x1024_1_0) bitsLt_bf16_f32 :=
  by
  show StableHlo.after hostOps1 (W2 m ρ c) (Proc.devRef .tc main_v6) = _
  after_results
  exact at2_main_v6 m ρ c
theorem at2_main_arg6 : W2 m ρ c (Proc.devRef .tc main_arg6) = (m ((c : Thread nD τ).loc main_arg6)) :=
  (W2_of_ne m ρ c main_arg6 (by decide)).trans (at1_main_arg6 m ρ c)
theorem at3_main_v14 : W3 m ρ c (Proc.devRef .tc main_v14) = shapeCast _ ((m ((c : Thread nD τ).loc main_arg6))) shapeCasts_S1024_S1x1024 :=
  by
  have e : W3 m ρ c (Proc.devRef .tc main_v14) = shapeCast _ (W2 m ρ c (Proc.devRef .tc main_arg6)) shapeCasts_S1024_S1x1024 := by
    show StableHlo.after hostOps1 (W2 m ρ c) (Proc.devRef .tc main_v14) = _
    after_results <;> rfl
  rw [e, at2_main_arg6 m ρ c]
theorem at2_main_v12 : W2 m ρ c (Proc.devRef .tc main_v12) = Y0 m ρ c :=
  W2_arr m ρ c 3
theorem at3_main_v13 : W3 m ρ c (Proc.devRef .tc main_v13) = shapeCast _ (Y0 m ρ c) shapeCasts_S4096x1024_S2x2048x1024 :=
  by
  have e : W3 m ρ c (Proc.devRef .tc main_v13) = shapeCast _ (W2 m ρ c (Proc.devRef .tc main_v12)) shapeCasts_S4096x1024_S2x2048x1024 := by
    show StableHlo.after hostOps1 (W2 m ρ c) (Proc.devRef .tc main_v13) = _
    after_results <;> rfl
  rw [e, at2_main_v12 m ρ c]
theorem at2_main_v2 : W2 m ρ c (Proc.devRef .tc main_v2) = shapeCast _ (m ((c : Thread nD τ).loc main_arg2)) shapeCasts_S2x2048x1024_S4096x1024 :=
  (W2_of_ne m ρ c main_v2 (by decide)).trans (at1_main_v2 m ρ c)
theorem at3_main_v2 : W3 m ρ c (Proc.devRef .tc main_v2) = shapeCast _ (m ((c : Thread nD τ).loc main_arg2)) shapeCasts_S2x2048x1024_S4096x1024 :=
  by
  show StableHlo.after hostOps1 (W2 m ρ c) (Proc.devRef .tc main_v2) = _
  after_results
  exact at2_main_v2 m ρ c
theorem at4_main_v2 : W4 m ρ c (Proc.devRef .tc main_v2) = shapeCast _ (m ((c : Thread nD τ).loc main_arg2)) shapeCasts_S2x2048x1024_S4096x1024 :=
  (W4_of_ne m ρ c main_v2 (by decide)).trans (at3_main_v2 m ρ c)
theorem at5_main_v2 : W5 m ρ c (Proc.devRef .tc main_v2) = shapeCast _ (m ((c : Thread nD τ).loc main_arg2)) shapeCasts_S2x2048x1024_S4096x1024 :=
  by
  show StableHlo.after hostOps2 (W4 m ρ c) (Proc.devRef .tc main_v2) = _
  after_results
  exact at4_main_v2 m ρ c
theorem at2_main_v8 : W2 m ρ c (Proc.devRef .tc main_v8) = truncf (F := Ideal) .bf16 (transpose S1024x1024 [1, 0] (m ((c : Thread nD τ).loc main_arg7)) transposes_S1024x1024_S1024x1024_1_0) bitsLt_bf16_f32 :=
  (W2_of_ne m ρ c main_v8 (by decide)).trans (at1_main_v8 m ρ c)
theorem at3_main_v8 : W3 m ρ c (Proc.devRef .tc main_v8) = truncf (F := Ideal) .bf16 (transpose S1024x1024 [1, 0] (m ((c : Thread nD τ).loc main_arg7)) transposes_S1024x1024_S1024x1024_1_0) bitsLt_bf16_f32 :=
  by
  show StableHlo.after hostOps1 (W2 m ρ c) (Proc.devRef .tc main_v8) = _
  after_results
  exact at2_main_v8 m ρ c
theorem at4_main_v8 : W4 m ρ c (Proc.devRef .tc main_v8) = truncf (F := Ideal) .bf16 (transpose S1024x1024 [1, 0] (m ((c : Thread nD τ).loc main_arg7)) transposes_S1024x1024_S1024x1024_1_0) bitsLt_bf16_f32 :=
  (W4_of_ne m ρ c main_v8 (by decide)).trans (at3_main_v8 m ρ c)
theorem at5_main_v8 : W5 m ρ c (Proc.devRef .tc main_v8) = truncf (F := Ideal) .bf16 (transpose S1024x1024 [1, 0] (m ((c : Thread nD τ).loc main_arg7)) transposes_S1024x1024_S1024x1024_1_0) bitsLt_bf16_f32 :=
  by
  show StableHlo.after hostOps2 (W4 m ρ c) (Proc.devRef .tc main_v8) = _
  after_results
  exact at4_main_v8 m ρ c
theorem at2_main_arg8 : W2 m ρ c (Proc.devRef .tc main_arg8) = (m ((c : Thread nD τ).loc main_arg8)) :=
  (W2_of_ne m ρ c main_arg8 (by decide)).trans (at1_main_arg8 m ρ c)
theorem at3_main_arg8 : W3 m ρ c (Proc.devRef .tc main_arg8) = (m ((c : Thread nD τ).loc main_arg8)) :=
  by
  show StableHlo.after hostOps1 (W2 m ρ c) (Proc.devRef .tc main_arg8) = _
  after_results
  exact at2_main_arg8 m ρ c
theorem at4_main_arg8 : W4 m ρ c (Proc.devRef .tc main_arg8) = (m ((c : Thread nD τ).loc main_arg8)) :=
  (W4_of_ne m ρ c main_arg8 (by decide)).trans (at3_main_arg8 m ρ c)
theorem at5_main_v17 : W5 m ρ c (Proc.devRef .tc main_v17) = shapeCast _ ((m ((c : Thread nD τ).loc main_arg8))) shapeCasts_S1024_S1x1024 :=
  by
  have e : W5 m ρ c (Proc.devRef .tc main_v17) = shapeCast _ (W4 m ρ c (Proc.devRef .tc main_arg8)) shapeCasts_S1024_S1x1024 := by
    show StableHlo.after hostOps2 (W4 m ρ c) (Proc.devRef .tc main_v17) = _
    after_results <;> rfl
  rw [e, at4_main_arg8 m ρ c]
theorem at4_main_v15 : W4 m ρ c (Proc.devRef .tc main_v15) = Y1 m ρ c :=
  W4_arr m ρ c 3
theorem at5_main_v16 : W5 m ρ c (Proc.devRef .tc main_v16) = shapeCast _ (Y1 m ρ c) shapeCasts_S4096x1024_S2x2048x1024 :=
  by
  have e : W5 m ρ c (Proc.devRef .tc main_v16) = shapeCast _ (W4 m ρ c (Proc.devRef .tc main_v15)) shapeCasts_S4096x1024_S2x2048x1024 := by
    show StableHlo.after hostOps2 (W4 m ρ c) (Proc.devRef .tc main_v16) = _
    after_results <;> rfl
  rw [e, at4_main_v15 m ρ c]
theorem at4_main_v13 : W4 m ρ c (Proc.devRef .tc main_v13) = shapeCast _ (Y0 m ρ c) shapeCasts_S4096x1024_S2x2048x1024 :=
  (W4_of_ne m ρ c main_v13 (by decide)).trans (at3_main_v13 m ρ c)
theorem at5_main_v13 : W5 m ρ c (Proc.devRef .tc main_v13) = shapeCast _ (Y0 m ρ c) shapeCasts_S4096x1024_S2x2048x1024 :=
  by
  show StableHlo.after hostOps2 (W4 m ρ c) (Proc.devRef .tc main_v13) = _
  after_results
  exact at4_main_v13 m ρ c
theorem at2_main_v10 : W2 m ρ c (Proc.devRef .tc main_v10) = truncf (F := Ideal) .bf16 (transpose S1024x1024 [1, 0] (m ((c : Thread nD τ).loc main_arg9)) transposes_S1024x1024_S1024x1024_1_0) bitsLt_bf16_f32 :=
  (W2_of_ne m ρ c main_v10 (by decide)).trans (at1_main_v10 m ρ c)
theorem at3_main_v10 : W3 m ρ c (Proc.devRef .tc main_v10) = truncf (F := Ideal) .bf16 (transpose S1024x1024 [1, 0] (m ((c : Thread nD τ).loc main_arg9)) transposes_S1024x1024_S1024x1024_1_0) bitsLt_bf16_f32 :=
  by
  show StableHlo.after hostOps1 (W2 m ρ c) (Proc.devRef .tc main_v10) = _
  after_results
  exact at2_main_v10 m ρ c
theorem at4_main_v10 : W4 m ρ c (Proc.devRef .tc main_v10) = truncf (F := Ideal) .bf16 (transpose S1024x1024 [1, 0] (m ((c : Thread nD τ).loc main_arg9)) transposes_S1024x1024_S1024x1024_1_0) bitsLt_bf16_f32 :=
  (W4_of_ne m ρ c main_v10 (by decide)).trans (at3_main_v10 m ρ c)
theorem at5_main_v10 : W5 m ρ c (Proc.devRef .tc main_v10) = truncf (F := Ideal) .bf16 (transpose S1024x1024 [1, 0] (m ((c : Thread nD τ).loc main_arg9)) transposes_S1024x1024_S1024x1024_1_0) bitsLt_bf16_f32 :=
  by
  show StableHlo.after hostOps2 (W4 m ρ c) (Proc.devRef .tc main_v10) = _
  after_results
  exact at4_main_v10 m ρ c
theorem at2_main_arg10 : W2 m ρ c (Proc.devRef .tc main_arg10) = (m ((c : Thread nD τ).loc main_arg10)) :=
  (W2_of_ne m ρ c main_arg10 (by decide)).trans (at1_main_arg10 m ρ c)
theorem at3_main_arg10 : W3 m ρ c (Proc.devRef .tc main_arg10) = (m ((c : Thread nD τ).loc main_arg10)) :=
  by
  show StableHlo.after hostOps1 (W2 m ρ c) (Proc.devRef .tc main_arg10) = _
  after_results
  exact at2_main_arg10 m ρ c
theorem at4_main_arg10 : W4 m ρ c (Proc.devRef .tc main_arg10) = (m ((c : Thread nD τ).loc main_arg10)) :=
  (W4_of_ne m ρ c main_arg10 (by decide)).trans (at3_main_arg10 m ρ c)
theorem at5_main_arg10 : W5 m ρ c (Proc.devRef .tc main_arg10) = (m ((c : Thread nD τ).loc main_arg10)) :=
  by
  show StableHlo.after hostOps2 (W4 m ρ c) (Proc.devRef .tc main_arg10) = _
  after_results
  exact at4_main_arg10 m ρ c

end Cert.KernelIdeal.Whole

end
-- ==== Proof.FoldB.lean ====
/-
  The fold through @main, continued: the boundaries from the third projection's exit to the result.
-/
import proofs.«164350_j43611097924070_2_alg».proof.Proof.Gen.KernelIdeal.Frame
import proofs.«164350_j43611097924070_2_alg».proof.Proof.Fold
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Boundaries 6 to 11 -/

theorem at6_main_v13 : W6 m ρ c (Proc.devRef .tc main_v13) = shapeCast _ (Y0 m ρ c) shapeCasts_S4096x1024_S2x2048x1024 :=
  (W6_of_ne m ρ c main_v13 (by decide)).trans (at5_main_v13 m ρ c)
theorem at6_main_v16 : W6 m ρ c (Proc.devRef .tc main_v16) = shapeCast _ (Y1 m ρ c) shapeCasts_S4096x1024_S2x2048x1024 :=
  (W6_of_ne m ρ c main_v16 (by decide)).trans (at5_main_v16 m ρ c)
theorem at6_main_v18 : W6 m ρ c (Proc.devRef .tc main_v18) = Y2 m ρ c :=
  W6_arr m ρ c 3
theorem at7_main_v24 : W7 m ρ c (Proc.devRef .tc main_v24) = shapeCast _ (shapeCast _ (shapeCast _ (Y0 m ρ c) shapeCasts_S4096x1024_S2x2048x1024) shapeCasts_S2x2048x1024_S2x16x2048x64) shapeCasts_S2x16x2048x64_S32x2048x64 :=
  by
  have e : W7 m ρ c (Proc.devRef .tc main_v24) = shapeCast _ (shapeCast _ (W6 m ρ c (Proc.devRef .tc main_v13)) shapeCasts_S2x2048x1024_S2x16x2048x64) shapeCasts_S2x16x2048x64_S32x2048x64 := by
    show StableHlo.after hostOps3 (W6 m ρ c) (Proc.devRef .tc main_v24) = _
    after_results <;> rfl
  rw [e, at6_main_v13 m ρ c]
theorem at7_main_v25 : W7 m ρ c (Proc.devRef .tc main_v25) = shapeCast _ (shapeCast _ (shapeCast _ (shapeCast _ (Y1 m ρ c) shapeCasts_S4096x1024_S2x2048x1024) shapeCasts_S2x2048x1024_S2x16x2048x64) shapeCasts_S2x16x2048x64_S2x16x64x2048) shapeCasts_S2x16x64x2048_S32x64x2048 :=
  by
  have e : W7 m ρ c (Proc.devRef .tc main_v25) = shapeCast _ (shapeCast _ (shapeCast _ (W6 m ρ c (Proc.devRef .tc main_v16)) shapeCasts_S2x2048x1024_S2x16x2048x64) shapeCasts_S2x16x2048x64_S2x16x64x2048) shapeCasts_S2x16x64x2048_S32x64x2048 := by
    show StableHlo.after hostOps3 (W6 m ρ c) (Proc.devRef .tc main_v25) = _
    after_results <;> rfl
  rw [e, at6_main_v16 m ρ c]
theorem at7_main_v26 : W7 m ρ c (Proc.devRef .tc main_v26) = shapeCast _ (shapeCast _ (shapeCast _ (Y2 m ρ c) shapeCasts_S4096x1024_S2x2048x1024) shapeCasts_S2x2048x1024_S2x16x2048x64) shapeCasts_S2x16x2048x64_S32x2048x64 :=
  by
  have e : W7 m ρ c (Proc.devRef .tc main_v26) = shapeCast _ (shapeCast _ (shapeCast _ (W6 m ρ c (Proc.devRef .tc main_v18)) shapeCasts_S4096x1024_S2x2048x1024) shapeCasts_S2x2048x1024_S2x16x2048x64) shapeCasts_S2x16x2048x64_S32x2048x64 := by
    show StableHlo.after hostOps3 (W6 m ρ c) (Proc.devRef .tc main_v26) = _
    after_results <;> rfl
  rw [e, at6_main_v18 m ρ c]
theorem at8_main_v27 : W8 m ρ c (Proc.devRef .tc main_v27) = Y3 m ρ c :=
  W8_arr m ρ c 3
theorem at9_main_v30 : W9 m ρ c (Proc.devRef .tc main_v30) = shapeCast _ (shapeCast _ (shapeCast _ (Y3 m ρ c) shapeCasts_S32x2048x64_S2x16x2048x64) shapeCasts_S2x16x2048x64_S2x2048x1024) shapeCasts_S2x2048x1024_S4096x1024 :=
  by
  have e : W9 m ρ c (Proc.devRef .tc main_v30) = shapeCast _ (shapeCast _ (shapeCast _ (W8 m ρ c (Proc.devRef .tc main_v27)) shapeCasts_S32x2048x64_S2x16x2048x64) shapeCasts_S2x16x2048x64_S2x2048x1024) shapeCasts_S2x2048x1024_S4096x1024 := by
    show StableHlo.after hostOps4 (W8 m ρ c) (Proc.devRef .tc main_v30) = _
    after_results <;> rfl
  rw [e, at8_main_v27 m ρ c]
theorem at6_main_v10 : W6 m ρ c (Proc.devRef .tc main_v10) = truncf (F := Ideal) .bf16 (transpose S1024x1024 [1, 0] (m ((c : Thread nD τ).loc main_arg9)) transposes_S1024x1024_S1024x1024_1_0) bitsLt_bf16_f32 :=
  (W6_of_ne m ρ c main_v10 (by decide)).trans (at5_main_v10 m ρ c)
theorem at7_main_v10 : W7 m ρ c (Proc.devRef .tc main_v10) = truncf (F := Ideal) .bf16 (transpose S1024x1024 [1, 0] (m ((c : Thread nD τ).loc main_arg9)) transposes_S1024x1024_S1024x1024_1_0) bitsLt_bf16_f32 :=
  by
  show StableHlo.after hostOps3 (W6 m ρ c) (Proc.devRef .tc main_v10) = _
  after_results
  exact at6_main_v10 m ρ c
theorem at8_main_v10 : W8 m ρ c (Proc.devRef .tc main_v10) = truncf (F := Ideal) .bf16 (transpose S1024x1024 [1, 0] (m ((c : Thread nD τ).loc main_arg9)) transposes_S1024x1024_S1024x1024_1_0) bitsLt_bf16_f32 :=
  (W8_of_ne m ρ c main_v10 (by decide)).trans (at7_main_v10 m ρ c)
theorem at9_main_v10 : W9 m ρ c (Proc.devRef .tc main_v10) = truncf (F := Ideal) .bf16 (transpose S1024x1024 [1, 0] (m ((c : Thread nD τ).loc main_arg9)) transposes_S1024x1024_S1024x1024_1_0) bitsLt_bf16_f32 :=
  by
  show StableHlo.after hostOps4 (W8 m ρ c) (Proc.devRef .tc main_v10) = _
  after_results
  exact at8_main_v10 m ρ c
theorem at6_main_arg10 : W6 m ρ c (Proc.devRef .tc main_arg10) = (m ((c : Thread nD τ).loc main_arg10)) :=
  (W6_of_ne m ρ c main_arg10 (by decide)).trans (at5_main_arg10 m ρ c)
theorem at7_main_arg10 : W7 m ρ c (Proc.devRef .tc main_arg10) = (m ((c : Thread nD τ).loc main_arg10)) :=
  by
  show StableHlo.after hostOps3 (W6 m ρ c) (Proc.devRef .tc main_arg10) = _
  after_results
  exact at6_main_arg10 m ρ c
theorem at8_main_arg10 : W8 m ρ c (Proc.devRef .tc main_arg10) = (m ((c : Thread nD τ).loc main_arg10)) :=
  (W8_of_ne m ρ c main_arg10 (by decide)).trans (at7_main_arg10 m ρ c)
theorem at9_main_v31 : W9 m ρ c (Proc.devRef .tc main_v31) = shapeCast _ ((m ((c : Thread nD τ).loc main_arg10))) shapeCasts_S1024_S1x1024 :=
  by
  have e : W9 m ρ c (Proc.devRef .tc main_v31) = shapeCast _ (W8 m ρ c (Proc.devRef .tc main_arg10)) shapeCasts_S1024_S1x1024 := by
    show StableHlo.after hostOps4 (W8 m ρ c) (Proc.devRef .tc main_v31) = _
    after_results <;> rfl
  rw [e, at8_main_arg10 m ρ c]
theorem at10_main_v32 : W10 m ρ c (Proc.devRef .tc main_v32) = Y4 m ρ c :=
  W10_arr m ρ c 3
theorem at11_main_v33 : W11 m ρ c (Proc.devRef .tc main_v33) = shapeCast _ (Y4 m ρ c) shapeCasts_S4096x1024_S2x2048x1024 :=
  by
  have e : W11 m ρ c (Proc.devRef .tc main_v33) = shapeCast _ (W10 m ρ c (Proc.devRef .tc main_v32)) shapeCasts_S4096x1024_S2x2048x1024 := by
    show StableHlo.after hostOps5 (W10 m ρ c) (Proc.devRef .tc main_v33) = _
    after_results <;> rfl
  rw [e, at10_main_v32 m ρ c]

end Cert.KernelIdeal.Whole

end
-- ==== Proof.Spec.lean ====
/-
  One row of softmax attention, and one entry of a linear layer, as plain functions on the extended reals.

  A linear layer's entry is the dot product of an input row with a weight row, plus the bias entry.
  One attention output entry, for a query row `q` (64 numbers), the keys `K` (64 × 2048) and one value
  column `V` (2048 numbers): the logits are `z s = (Σ_j q j · K j s) · c` with `c` the scale 1/8 (its binary
  pattern), their maximum is taken from −∞, the weights are `exp (z s − max)`, normalised by their sum, and
  the entry is `Σ_s weight s · V s`.  Both programs compute exactly this, each in its own tiling.
-/
import Idealize.ShloMosaic.PureOps.Ideal
import Idealize.ShloMosaic.PureOps.Ideal.Laws

noncomputable section

namespace Cert.MHA

open Idealize.ShloMosaic

/-- One entry of `x · Wᵀ + b`: the input row against the weight row, plus the bias entry. -/
def linRow (x w : Fin 1024 → EReal) (b : EReal) : EReal := (∑ k : Fin 1024, x k * w k) + b

/-- The attention scale 1/8, as the f32 pattern of 0.125. -/
def scaleC : EReal := Ideal.ofBits .f32 0x3E000000#32

/-- −∞, the value the row maximum starts from. -/
def negInf : EReal := Ideal.ofBits .f32 0xFF800000#32

/-- The scaled logit of key `s`. -/
def logit (q : Fin 64 → EReal) (K : Fin 64 → Fin 2048 → EReal) (s : Fin 2048) : EReal :=
  (∑ j : Fin 64, q j * K j s) * scaleC

/-- The maximum of a row of logits, from −∞. -/
def rmax (z : Fin 2048 → EReal) : EReal := (Finset.univ : Finset (Fin 2048)).fold max negInf z

/-- The unnormalised softmax weight of key `s`. -/
def ew (z : Fin 2048 → EReal) (s : Fin 2048) : EReal := Ideal.exp (z s - rmax z)

/-- The softmax weight of key `s`. -/
def prob (z : Fin 2048 → EReal) (s : Fin 2048) : EReal := Ideal.div (ew z s) (∑ s' : Fin 2048, ew z s')

/-- One attention output entry: the softmax weights of the query's logits against one value column. -/
def attnRow (q : Fin 64 → EReal) (K : Fin 64 → Fin 2048 → EReal) (V : Fin 2048 → EReal) : EReal :=
  ∑ s : Fin 2048, prob (logit q K) s * V s

end Cert.MHA

end
-- ==== Proof.LinG.lean ====
/-
  A projection's whole output array as one function of the three arrays its region loads from.
-/
import proofs.«164350_j43611097924070_2_alg».proof.KernelIdeal
import proofs.«164350_j43611097924070_2_alg».proof.Proof.Spec
import Idealize.ShloMosaic.Lib.ValueIdx

noncomputable section

namespace Cert.KernelIdeal.Blocks

open Cert.KernelIdeal Cert.MHA
open Idealize.ShloMosaic Idealize.ShloMosaic.ValueIdx

theorem hz2 : (![0, 0] : Fin 2 → Nat) = fun _ => 0 := funext fun a => by fin_cases a <;> rfl

theorem hz3 : (![0, 0, 0] : Fin 3 → Nat) = fun _ => 0 := funext fun a => by fin_cases a <;> rfl

/-- A projection's whole output array from its three operand arrays: entry (i, o) is row i of the input against
    column o of the transposed weights, plus the bias entry o. -/
def linG (X : S4096x1024.Idx → EReal) (Wt : S1024x1024.Idx → EReal) (B : S1x1024.Idx → EReal) : S4096x1024.Idx → EReal :=
  fun i => linRow (fun k => X (ix2 (⟨(i 0).val, (i 0).isLt⟩ : Fin 4096) k))
    (fun k => Wt (ix2 k (⟨(i 1).val, (i 1).isLt⟩ : Fin 1024))) (B (ix2 (0 : Fin 1) (⟨(i 1).val, (i 1).isLt⟩ : Fin 1024)))

/-- The attention region's whole output array from its three operand arrays: entry (g, l, d), for head-batch g, is the
    attention row of query row l of g against g's keys and column d of g's values. -/
def attnG (Q : S32x2048x64.Idx → EReal) (K : S32x64x2048.Idx → EReal) (Vv : S32x2048x64.Idx → EReal) : S32x2048x64.Idx → EReal :=
  fun i => attnRow (fun j => Q (ix3 (⟨(i 0).val, (i 0).isLt⟩ : Fin 32) (⟨(i 1).val, (i 1).isLt⟩ : Fin 2048) j))
    (fun j s => K (ix3 (⟨(i 0).val, (i 0).isLt⟩ : Fin 32) j s))
    (fun s => Vv (ix3 (⟨(i 0).val, (i 0).isLt⟩ : Fin 32) s (⟨(i 2).val, (i 2).isLt⟩ : Fin 64)))

end Cert.KernelIdeal.Blocks

end
-- ==== Proof.LinBody.lean ====
/-
  The four linear-layer kernel bodies, read at one output entry.

  Each body multiplies the input block by the weight block into a zero accumulator and adds the bias
  row, broadcast over the rows.  At the ideal values the roundings are the identity and the product
  is the exact sum over the contraction index, so the entry at row `r`, column `o` is
  `Σ_k x r k · w k o + b o`: one entry of the linear layer.
-/
import proofs.«164350_j43611097924070_2_alg».proof.Proof.Gen.KernelIdeal.Skeleton
import proofs.«164350_j43611097924070_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.MHA

open Idealize.ShloMosaic Idealize.ShloMosaic.ValueIdx Cert.KernelIdeal Cert.KernelIdeal.Facts₀

variable [Cert.KernelIdeal.Facts]

/-- Row coordinate of the left operand's index: the output row. -/
theorem dot_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- Column coordinate of the left operand's index: the contraction coordinate. -/
theorem dot_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- Row coordinate of the right operand's index: the contraction coordinate. -/
theorem dot_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- Column coordinate of the right operand's index: the output column. -/
theorem dot_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product's contraction, re-indexed by the 1024 coordinates of the contracted axis: at output
    entry `(r, o)` the left operand is read along row `r` and the right one down column `o`. -/
theorem dot_sum_1024 {φ₁ φ₂ : FTy} (a : FVec Ideal S1024x1024 φ₁) (b : FVec Ideal S1024x1024 φ₂) (r o : Fin 1024) :
    (∑ q : dot_S1024x1024_S1024x1024_S1024x1024_1_0_0_1_n_n.contr.Idx,
        a (dot_S1024x1024_S1024x1024_S1024x1024_1_0_0_1_n_n.lhsIdx (ix2 r o) q)
          * b (dot_S1024x1024_S1024x1024_S1024x1024_1_0_0_1_n_n.rhsIdx (ix2 r o) q))
      = ∑ k : Fin 1024, a (ix2 r k) * b (ix2 k o) := by
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r o)
      ((contrEquiv1 dot_S1024x1024_S1024x1024_S1024x1024_1_0_0_1_n_n 1024 rfl rfl).symm k) = ix2 r k :=
    funext fun ax => Fin.ext (by
      match ax with
      | ⟨0, _⟩ => exact dot_lhs_0 _ _
      | ⟨1, _⟩ => exact (dot_lhs_1 _ _).trans hk)
  have er : dot_S1024x1024_S1024x1024_S1024x1024_1_0_0_1_n_n.rhsIdx (ix2 r o)
      ((contrEquiv1 dot_S1024x1024_S1024x1024_S1024x1024_1_0_0_1_n_n 1024 rfl rfl).symm k) = ix2 k o :=
    funext fun ax => Fin.ext (by
      match ax with
      | ⟨0, _⟩ => exact (dot_rhs_0 _ _).trans hk
      | ⟨1, _⟩ => exact dot_rhs_1 _ _)
  rw [el, er]

/-- The body of linear kernel 0 at entry `(r, o)`: the rounding of the input is the identity, the product
    into the zero accumulator is the exact sum over the contraction index, and the broadcast bias row
    contributes its entry at column `o`. -/
theorem lin_pay0 (x0 : FVec Ideal S1024x1024 .f32) (x1 : FVec Ideal S1024x1024 .bf16) (x2 : FVec Ideal S1x1024 .f32) (r o : Fin 1024) :
    Cert.KernelIdeal.Gen.k0_pay1 (F := Ideal) x0 x1 x2 (ix2 r o)
      = linRow (fun k => x0 (ix2 r k)) (fun k => x1 (ix2 k o)) (x2 (ix2 (0 : Fin 1) o)) := by
  unfold Cert.KernelIdeal.Gen.k0_pay1
  simp only [shapeCast_self]
  rw [truncf_apply, addf_apply, broadcastTo_1b_ab_apply]
  simp only [matmul]
  rw [Ideal.matmul_constant_zero_apply, dot_sum_1024]
  simp only [linRow, truncf_apply]

/-- The body of linear kernel 1 at entry `(r, o)`: the rounding of the input is the identity, the product
    into the zero accumulator is the exact sum over the contraction index, and the broadcast bias row
    contributes its entry at column `o`. -/
theorem lin_pay1 (x0 : FVec Ideal S1024x1024 .f32) (x1 : FVec Ideal S1024x1024 .bf16) (x2 : FVec Ideal S1x1024 .f32) (r o : Fin 1024) :
    Cert.KernelIdeal.Gen.k1_pay1 (F := Ideal) x0 x1 x2 (ix2 r o)
      = linRow (fun k => x0 (ix2 r k)) (fun k => x1 (ix2 k o)) (x2 (ix2 (0 : Fin 1) o)) := by
  unfold Cert.KernelIdeal.Gen.k1_pay1
  simp only [shapeCast_self]
  rw [truncf_apply, addf_apply, broadcastTo_1b_ab_apply]
  simp only [matmul]
  rw [Ideal.matmul_constant_zero_apply, dot_sum_1024]
  simp only [linRow, truncf_apply]

/-- The body of linear kernel 2 at entry `(r, o)`: the rounding of the input is the identity, the product
    into the zero accumulator is the exact sum over the contraction index, and the broadcast bias row
    contributes its entry at column `o`. -/
theorem lin_pay2 (x0 : FVec Ideal S1024x1024 .f32) (x1 : FVec Ideal S1024x1024 .bf16) (x2 : FVec Ideal S1x1024 .f32) (r o : Fin 1024) :
    Cert.KernelIdeal.Gen.k2_pay1 (F := Ideal) x0 x1 x2 (ix2 r o)
      = linRow (fun k => x0 (ix2 r k)) (fun k => x1 (ix2 k o)) (x2 (ix2 (0 : Fin 1) o)) := by
  unfold Cert.KernelIdeal.Gen.k2_pay1
  simp only [shapeCast_self]
  rw [truncf_apply, addf_apply, broadcastTo_1b_ab_apply]
  simp only [matmul]
  rw [Ideal.matmul_constant_zero_apply, dot_sum_1024]
  simp only [linRow, truncf_apply]

/-- The body of the output linear kernel at entry `(r, o)`: the same sum, with no rounding step at all. -/
theorem lin_pay4 (x0 : FVec Ideal S1024x1024 .bf16) (x1 : FVec Ideal S1024x1024 .bf16) (x2 : FVec Ideal S1x1024 .f32) (r o : Fin 1024) :
    Cert.KernelIdeal.Gen.k4_pay1 (F := Ideal) x0 x1 x2 (ix2 r o)
      = linRow (fun k => x0 (ix2 r k)) (fun k => x1 (ix2 k o)) (x2 (ix2 (0 : Fin 1) o)) := by
  unfold Cert.KernelIdeal.Gen.k4_pay1
  simp only [shapeCast_self]
  rw [addf_apply, broadcastTo_1b_ab_apply]
  simp only [matmul]
  rw [Ideal.matmul_constant_zero_apply, dot_sum_1024]
  simp only [linRow]

end Cert.MHA

end
-- ==== Proof.Region0.lean ====
/-
  What the first projection region leaves in its output array.

  The region runs its body at four grid points; point t loads rows 1024·t … 1024·t+1023 of the input array, the whole
  (transposed) weight matrix and the bias row, and writes back the same rows of the output.  Its body's stored value
  at (r, o) is the input row r against the weight column o, plus the bias entry o.  Since the four blocks tile the
  array, the array ends as ONE function of the three arrays the region found: entry (i, o) is row i of the input
  against column o of the weights, plus the bias entry.
-/
import proofs.«164350_j43611097924070_2_alg».proof.Proof.Gen.KernelIdeal.Frame
import proofs.«164350_j43611097924070_2_alg».proof.Proof.Spec
import proofs.«164350_j43611097924070_2_alg».proof.Proof.LinG
import proofs.«164350_j43611097924070_2_alg».proof.Proof.LinBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.MHA
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the four points: the input's and the output's row blocks move together, the weights'
    and the bias's blocks stay at the origin. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row block is some point's. -/
theorem idx_onto0 : ∀ q0 : Fin 4, ∃ t : Fin cfg0.N, win0_3.index t = ![q0.val, 0] :=
  (by decide +kernel : ∀ q0 : Fin 4, ∃ t : Fin grid0.N, win0_3.index t = ![q0.val, 0])

/-- What point t writes back is block t of the whole-array function. -/
theorem flushed0_eq (c : Dev nD) (t : Fin cfg0.N) :
    (dat0 V c).flushed 3 t = ((cfg0.win 3).blk t).view.read (Elt Ideal) (linG (V c main_v0) (V c main_v4) (V c main_v11)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨e0, e1, e2, e3, e4, e5, e6, e7⟩ := idx_facts0 t
  funext j
  obtain ⟨r, o, rfl⟩ : ∃ (r o : Fin 1024), j = ix2 r o := ⟨j 0, j 1, eq_ix2 j⟩
  refine (lin_pay0 _ _ _ r o).trans ?_
  show linRow (fun k => V c main_v0 (((cfg0.win 0).blk t).view.emb (ix2 r k)))
      (fun k => V c main_v4 (((cfg0.win 1).blk t).view.emb (ix2 k o)))
      (V c main_v11 (((cfg0.win 2).blk t).view.emb (ix2 (0 : Fin 1) o)))
    = linG (V c main_v0) (V c main_v4) (V c main_v11) (((cfg0.win 3).blk t).view.emb (ix2 r o))
  unfold linG
  have hr : r.val < 1024 := r.isLt
  have ho : o.val < 1024 := o.isLt
  have h0 : ∀ k : Fin 1024, ((cfg0.win 0).blk t).view.emb (ix2 r k)
      = ix2 (⟨((((cfg0.win 3).blk t).view.emb (ix2 r o)) 0).val, ((((cfg0.win 3).blk t).view.emb (ix2 r o)) 0).isLt⟩ : Fin 4096) k := by
    intro k; funext a; apply Fin.ext
    match a with
    | ⟨0, _⟩ => show win0_0.index t (0 : Fin 2) * 1024 + 1 * r.val = win0_3.index t (0 : Fin 2) * 1024 + 1 * r.val; omega
    | ⟨1, _⟩ => show win0_0.index t (1 : Fin 2) * 1024 + 1 * k.val = k.val; omega
  have h1 : ∀ k : Fin 1024, ((cfg0.win 1).blk t).view.emb (ix2 k o)
      = ix2 k (⟨((((cfg0.win 3).blk t).view.emb (ix2 r o)) 1).val, ((((cfg0.win 3).blk t).view.emb (ix2 r o)) 1).isLt⟩ : Fin 1024) := by
    intro k; funext a; apply Fin.ext
    match a with
    | ⟨0, _⟩ => show win0_1.index t (0 : Fin 2) * 1024 + 1 * k.val = k.val; omega
    | ⟨1, _⟩ => show win0_1.index t (1 : Fin 2) * 1024 + 1 * o.val = win0_3.index t (1 : Fin 2) * 1024 + 1 * o.val; omega
  have h2 : ((cfg0.win 2).blk t).view.emb (ix2 (0 : Fin 1) o)
      = ix2 (0 : Fin 1) (⟨((((cfg0.win 3).blk t).view.emb (ix2 r o)) 1).val, ((((cfg0.win 3).blk t).view.emb (ix2 r o)) 1).isLt⟩ : Fin 1024) := by
    funext a; apply Fin.ext
    match a with
    | ⟨0, _⟩ => show win0_2.index t (0 : Fin 2) * 1 + 1 * 0 = 0; omega
    | ⟨1, _⟩ => show win0_2.index t (1 : Fin 2) * 1024 + 1 * o.val = win0_3.index t (1 : Fin 2) * 1024 + 1 * o.val; omega
  simp only [h0, h1, h2]

/-- An index of the output array is in point t's block iff each coordinate is in the block's range. -/
theorem mem_blk0 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v12).slice (win0_3.rect t)).set ↔ _
  rw [View.set_slice_whole, Rect.mem_set_unit]
  exact Iff.rfl

/-- The four row blocks cover the array. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the projection of the three arrays the region found. -/
theorem final0 (c : Dev nD) : (dat0 V c).arrAt 3 cfg0.N = linG (V c main_v0) (V c main_v4) (V c main_v11) :=
  (dat0 V c).arrAt_eq_of_cover 3 _ (fun t _ => flushed0_eq V c t) cover0

end Cert.KernelIdeal.Blocks

end
-- ==== Proof.Region1.lean ====
/-
  What the second projection region leaves in its output array.

  The region runs its body at four grid points; point t loads rows 1024·t … 1024·t+1023 of the input array, the whole
  (transposed) weight matrix and the bias row, and writes back the same rows of the output.  Its body's stored value
  at (r, o) is the input row r against the weight column o, plus the bias entry o.  Since the four blocks tile the
  array, the array ends as ONE function of the three arrays the region found: entry (i, o) is row i of the input
  against column o of the weights, plus the bias entry.
-/
import proofs.«164350_j43611097924070_2_alg».proof.Proof.Gen.KernelIdeal.Frame
import proofs.«164350_j43611097924070_2_alg».proof.Proof.Spec
import proofs.«164350_j43611097924070_2_alg».proof.Proof.LinG
import proofs.«164350_j43611097924070_2_alg».proof.Proof.LinBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.MHA
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the four points: the input's and the output's row blocks move together, the weights'
    and the bias's blocks stay at the origin. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 3 :=
  (by decide +kernel : ∀ t : Fin grid1.N, _)

/-- Every row block is some point's. -/
theorem idx_onto1 : ∀ q0 : Fin 4, ∃ t : Fin cfg1.N, win1_3.index t = ![q0.val, 0] :=
  (by decide +kernel : ∀ q0 : Fin 4, ∃ t : Fin grid1.N, win1_3.index t = ![q0.val, 0])

/-- What point t writes back is block t of the whole-array function. -/
theorem flushed1_eq (c : Dev nD) (t : Fin cfg1.N) :
    (dat1 V c).flushed 3 t = ((cfg1.win 3).blk t).view.read (Elt Ideal) (linG (V c main_v1) (V c main_v6) (V c main_v14)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨e0, e1, e2, e3, e4, e5, e6, e7⟩ := idx_facts1 t
  funext j
  obtain ⟨r, o, rfl⟩ : ∃ (r o : Fin 1024), j = ix2 r o := ⟨j 0, j 1, eq_ix2 j⟩
  refine (lin_pay1 _ _ _ r o).trans ?_
  show linRow (fun k => V c main_v1 (((cfg1.win 0).blk t).view.emb (ix2 r k)))
      (fun k => V c main_v6 (((cfg1.win 1).blk t).view.emb (ix2 k o)))
      (V c main_v14 (((cfg1.win 2).blk t).view.emb (ix2 (0 : Fin 1) o)))
    = linG (V c main_v1) (V c main_v6) (V c main_v14) (((cfg1.win 3).blk t).view.emb (ix2 r o))
  unfold linG
  have hr : r.val < 1024 := r.isLt
  have ho : o.val < 1024 := o.isLt
  have h0 : ∀ k : Fin 1024, ((cfg1.win 0).blk t).view.emb (ix2 r k)
      = ix2 (⟨((((cfg1.win 3).blk t).view.emb (ix2 r o)) 0).val, ((((cfg1.win 3).blk t).view.emb (ix2 r o)) 0).isLt⟩ : Fin 4096) k := by
    intro k; funext a; apply Fin.ext
    match a with
    | ⟨0, _⟩ => show win1_0.index t (0 : Fin 2) * 1024 + 1 * r.val = win1_3.index t (0 : Fin 2) * 1024 + 1 * r.val; omega
    | ⟨1, _⟩ => show win1_0.index t (1 : Fin 2) * 1024 + 1 * k.val = k.val; omega
  have h1 : ∀ k : Fin 1024, ((cfg1.win 1).blk t).view.emb (ix2 k o)
      = ix2 k (⟨((((cfg1.win 3).blk t).view.emb (ix2 r o)) 1).val, ((((cfg1.win 3).blk t).view.emb (ix2 r o)) 1).isLt⟩ : Fin 1024) := by
    intro k; funext a; apply Fin.ext
    match a with
    | ⟨0, _⟩ => show win1_1.index t (0 : Fin 2) * 1024 + 1 * k.val = k.val; omega
    | ⟨1, _⟩ => show win1_1.index t (1 : Fin 2) * 1024 + 1 * o.val = win1_3.index t (1 : Fin 2) * 1024 + 1 * o.val; omega
  have h2 : ((cfg1.win 2).blk t).view.emb (ix2 (0 : Fin 1) o)
      = ix2 (0 : Fin 1) (⟨((((cfg1.win 3).blk t).view.emb (ix2 r o)) 1).val, ((((cfg1.win 3).blk t).view.emb (ix2 r o)) 1).isLt⟩ : Fin 1024) := by
    funext a; apply Fin.ext
    match a with
    | ⟨0, _⟩ => show win1_2.index t (0 : Fin 2) * 1 + 1 * 0 = 0; omega
    | ⟨1, _⟩ => show win1_2.index t (1 : Fin 2) * 1024 + 1 * o.val = win1_3.index t (1 : Fin 2) * 1024 + 1 * o.val; omega
  simp only [h0, h1, h2]

/-- An index of the output array is in point t's block iff each coordinate is in the block's range. -/
theorem mem_blk1 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v15).slice (win1_3.rect t)).set ↔ _
  rw [View.set_slice_whole, Rect.mem_set_unit]
  exact Iff.rfl

/-- The four row blocks cover the array. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region: the projection of the three arrays the region found. -/
theorem final1 (c : Dev nD) : (dat1 V c).arrAt 3 cfg1.N = linG (V c main_v1) (V c main_v6) (V c main_v14) :=
  (dat1 V c).arrAt_eq_of_cover 3 _ (fun t _ => flushed1_eq V c t) cover1

end Cert.KernelIdeal.Blocks

end
-- ==== Proof.Region2.lean ====
/-
  What the third projection region leaves in its output array.

  The region runs its body at four grid points; point t loads rows 1024·t … 1024·t+1023 of the input array, the whole
  (transposed) weight matrix and the bias row, and writes back the same rows of the output.  Its body's stored value
  at (r, o) is the input row r against the weight column o, plus the bias entry o.  Since the four blocks tile the
  array, the array ends as ONE function of the three arrays the region found: entry (i, o) is row i of the input
  against column o of the weights, plus the bias entry.
-/
import proofs.«164350_j43611097924070_2_alg».proof.Proof.Gen.KernelIdeal.Frame
import proofs.«164350_j43611097924070_2_alg».proof.Proof.Spec
import proofs.«164350_j43611097924070_2_alg».proof.Proof.LinG
import proofs.«164350_j43611097924070_2_alg».proof.Proof.LinBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.MHA
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the four points: the input's and the output's row blocks move together, the weights'
    and the bias's blocks stay at the origin. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every row block is some point's. -/
theorem idx_onto2 : ∀ q0 : Fin 4, ∃ t : Fin cfg2.N, win2_3.index t = ![q0.val, 0] :=
  (by decide +kernel : ∀ q0 : Fin 4, ∃ t : Fin grid2.N, win2_3.index t = ![q0.val, 0])

/-- What point t writes back is block t of the whole-array function. -/
theorem flushed2_eq (c : Dev nD) (t : Fin cfg2.N) :
    (dat2 V c).flushed 3 t = ((cfg2.win 3).blk t).view.read (Elt Ideal) (linG (V c main_v2) (V c main_v8) (V c main_v17)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨e0, e1, e2, e3, e4, e5, e6, e7⟩ := idx_facts2 t
  funext j
  obtain ⟨r, o, rfl⟩ : ∃ (r o : Fin 1024), j = ix2 r o := ⟨j 0, j 1, eq_ix2 j⟩
  refine (lin_pay2 _ _ _ r o).trans ?_
  show linRow (fun k => V c main_v2 (((cfg2.win 0).blk t).view.emb (ix2 r k)))
      (fun k => V c main_v8 (((cfg2.win 1).blk t).view.emb (ix2 k o)))
      (V c main_v17 (((cfg2.win 2).blk t).view.emb (ix2 (0 : Fin 1) o)))
    = linG (V c main_v2) (V c main_v8) (V c main_v17) (((cfg2.win 3).blk t).view.emb (ix2 r o))
  unfold linG
  have hr : r.val < 1024 := r.isLt
  have ho : o.val < 1024 := o.isLt
  have h0 : ∀ k : Fin 1024, ((cfg2.win 0).blk t).view.emb (ix2 r k)
      = ix2 (⟨((((cfg2.win 3).blk t).view.emb (ix2 r o)) 0).val, ((((cfg2.win 3).blk t).view.emb (ix2 r o)) 0).isLt⟩ : Fin 4096) k := by
    intro k; funext a; apply Fin.ext
    match a with
    | ⟨0, _⟩ => show win2_0.index t (0 : Fin 2) * 1024 + 1 * r.val = win2_3.index t (0 : Fin 2) * 1024 + 1 * r.val; omega
    | ⟨1, _⟩ => show win2_0.index t (1 : Fin 2) * 1024 + 1 * k.val = k.val; omega
  have h1 : ∀ k : Fin 1024, ((cfg2.win 1).blk t).view.emb (ix2 k o)
      = ix2 k (⟨((((cfg2.win 3).blk t).view.emb (ix2 r o)) 1).val, ((((cfg2.win 3).blk t).view.emb (ix2 r o)) 1).isLt⟩ : Fin 1024) := by
    intro k; funext a; apply Fin.ext
    match a with
    | ⟨0, _⟩ => show win2_1.index t (0 : Fin 2) * 1024 + 1 * k.val = k.val; omega
    | ⟨1, _⟩ => show win2_1.index t (1 : Fin 2) * 1024 + 1 * o.val = win2_3.index t (1 : Fin 2) * 1024 + 1 * o.val; omega
  have h2 : ((cfg2.win 2).blk t).view.emb (ix2 (0 : Fin 1) o)
      = ix2 (0 : Fin 1) (⟨((((cfg2.win 3).blk t).view.emb (ix2 r o)) 1).val, ((((cfg2.win 3).blk t).view.emb (ix2 r o)) 1).isLt⟩ : Fin 1024) := by
    funext a; apply Fin.ext
    match a with
    | ⟨0, _⟩ => show win2_2.index t (0 : Fin 2) * 1 + 1 * 0 = 0; omega
    | ⟨1, _⟩ => show win2_2.index t (1 : Fin 2) * 1024 + 1 * o.val = win2_3.index t (1 : Fin 2) * 1024 + 1 * o.val; omega
  simp only [h0, h1, h2]

/-- An index of the output array is in point t's block iff each coordinate is in the block's range. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v18).slice (win2_3.rect t)).set ↔ _
  rw [View.set_slice_whole, Rect.mem_set_unit]
  exact Iff.rfl

/-- The four row blocks cover the array. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: the projection of the three arrays the region found. -/
theorem final2 (c : Dev nD) : (dat2 V c).arrAt 3 cfg2.N = linG (V c main_v2) (V c main_v8) (V c main_v17) :=
  (dat2 V c).arrAt_eq_of_cover 3 _ (fun t _ => flushed2_eq V c t) cover2

end Cert.KernelIdeal.Blocks

end
-- ==== Proof.AttnBody.lean ====
/-
  The attention kernel's body read at one output entry.

  The body takes a query block `q` (1 × 1024 × 64), a key block `K` (1 × 64 × 2048) and a value block `V`
  (1 × 2048 × 64).  It drops the leading unit axis of each, forms the 1024 × 2048 logits `q · K` scaled by 1/8,
  takes each row's maximum from −∞, exponentiates the differences from it, divides by each row's sum, multiplies by
  `V` and puts the unit axis back.  On the extended reals every one of these operations is exact, so entry
  (0, r, d) of the result is `attnRow` of row `r` of `q`, the keys, and column `d` of `V`:
  `Σ_s softmax(z)_s · V s d` with `z s = (Σ_j q r j · K j s) · 1/8`.

  The lemmas read each building block at an entry: the two matrix products as sums over the shared coordinate, a
  row maximum as the fold of `max` from −∞ and a row sum as the sum over the row's 2048 entries, and a per-row value
  cast to a column and spread back over the row as that row's value.  The theorem chains them; no arithmetic law is
  used, only the reading of each operation at an index.
-/
import proofs.«164350_j43611097924070_2_alg».proof.Proof.Gen.KernelIdeal.Skeleton
import proofs.«164350_j43611097924070_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.MHA

open Idealize.ShloMosaic Idealize.ShloMosaic.ValueIdx Cert.KernelIdeal Cert.KernelIdeal.Facts₀

variable [Cert.KernelIdeal.Facts]

namespace AttnBody

/-! ## The two matrix products read at an entry -/

theorem qk_lhs0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide),
    dif_pos (show (0 : Fin S1024x64.rank) ∈ dot_S1024x64_S64x2048_S1024x2048_1_0_0_1_n_n.lhsNonContracting by decide)]
  rfl

theorem qk_lhs1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q

theorem qk_rhs0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q

theorem qk_rhs1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide),
    dif_pos (show (1 : Fin S64x2048.rank) ∈ dot_S1024x64_S64x2048_S1024x2048_1_0_0_1_n_n.rhsNonContracting by decide)]
  rfl

/-- The product of a 1024 × 64 block with a 64 × 2048 block, accumulated into zero, at entry (r, s):
    the sum over the 64 shared coordinates. -/
theorem qk_apply (A : FVec Ideal S1024x64 .bf16) (B : FVec Ideal S64x2048 .bf16) (r : Fin 1024) (s : Fin 2048) :
    matmul (F := Ideal) dot_S1024x64_S64x2048_S1024x2048_1_0_0_1_n_n none A B (constant S1024x2048 .f32 0x00000000#32) (ix2 r s)
      = ∑ j : Fin 64, A (ix2 r j) * B (ix2 j s) := by
  show FloatOps.matmul dot_S1024x64_S64x2048_S1024x2048_1_0_0_1_n_n none A B (constant S1024x2048 .f32 0x00000000#32) (ix2 r s) = _
  rw [Ideal.matmul_constant_zero_apply,
    ← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 r s)
      ((contrEquiv1 dot_S1024x64_S64x2048_S1024x2048_1_0_0_1_n_n 64 rfl rfl).symm k) = ix2 r k :=
    funext fun a => Fin.ext (by
      match a with
      | ⟨0, _⟩ => exact qk_lhs0 _ _
      | ⟨1, _⟩ => exact (qk_lhs1 _ _).trans hk)
  have er : dot_S1024x64_S64x2048_S1024x2048_1_0_0_1_n_n.rhsIdx (ix2 r s)
      ((contrEquiv1 dot_S1024x64_S64x2048_S1024x2048_1_0_0_1_n_n 64 rfl rfl).symm k) = ix2 k s :=
    funext fun a => Fin.ext (by
      match a with
      | ⟨0, _⟩ => exact (qk_rhs0 _ _).trans hk
      | ⟨1, _⟩ => exact qk_rhs1 _ _)
  rw [el, er]

/-! ## A row reduction of a 1024 × 2048 block read at a row -/

/-- Row `r` with column `k` put back is the entry (r, k). -/
theorem lift_row (h : S1024x2048.Reduces [1] S1024) (r : Fin 1024) (k : Fin 2048) :
    h.lift (ix1 r) k = ix2 r k := by
  funext c; apply Fin.ext
  match c with
  | ⟨0, _⟩ => rfl
  | ⟨1, _⟩ => rfl

/-- The row maximum from −∞: the fold of `max` over the row's 2048 entries. -/
theorem rowmax_apply (v : FVec Ideal S1024x2048 .f32) (h : S1024x2048.Reduces [1] S1024)
    (hφ : FTy.f32 = FTy.f32 ∨ FTy.f32 = FTy.bf16) (hacc : (0xFF800000#32 : BitVec 32) = 0xFF800000#32) (r : Fin 1024) :
    multiReduction (F := Ideal) .maximumf [1] S1024 v 0xFF800000#32 h hφ hacc (ix1 r)
      = (Finset.univ : Finset (Fin 2048)).fold max negInf (fun s => v (ix2 r s)) := by
  refine (Ideal.multiReduction_maximumf_single v _ h hφ hacc (ix1 r)).trans ?_
  have hf : (v ∘ h.lift (ix1 r)) = fun s : Fin 2048 => v (ix2 r s) := funext fun k => congrArg v (lift_row h r k)
  exact congrArg (fun f => Finset.fold max (Ideal.ofBits .f32 0xFF800000#32) f (Finset.univ : Finset (Fin 2048))) hf

/-- The row sum from zero: the sum of the row's 2048 entries. -/
theorem rowsum_apply (v : FVec Ideal S1024x2048 .f32) (h : S1024x2048.Reduces [1] S1024)
    (hφ : FTy.f32 = FTy.f32 ∨ FTy.f32 = FTy.bf16) (hacc : (0x00000000#32 : BitVec 32) = 0x00000000#32) (r : Fin 1024) :
    multiReduction (F := Ideal) .add [1] S1024 v 0x00000000#32 h hφ hacc (ix1 r)
      = ∑ s : Fin 2048, v (ix2 r s) := by
  refine (Ideal.multiReduction_add_single v _ h hφ hacc (ix1 r)).trans ?_
  exact Finset.sum_congr rfl fun k _ => congrArg v (lift_row h r k)

/-! ## A per-row value spread back over the row -/

/-- A vector of 1024 per-row values, cast to a column and broadcast over the 2048 columns, reads at (r, s) the value of row `r`. -/
theorem keepdims_apply {α : Type} (w : S1024.Idx → α) (h1 : S1024.ShapeCasts S1024x1) (h2 : S1024x1.Broadcasts S1024x2048)
    (r : Fin 1024) (s : Fin 2048) :
    broadcastTo S1024x2048 (shapeCast S1024x1 w h1) h2 (ix2 r s) = w (ix1 r) := by
  refine (broadcastTo_apply (shapeCast S1024x1 w h1) h2 (ix2 r s) (ix2 r (0 : Fin 1)) fun ax => ?_).trans ?_
  · match ax with
    | ⟨0, _⟩ => show r.val = if (1024 : Nat) = 1 then 0 else r.val; rw [if_neg (by decide)]
    | ⟨1, _⟩ => show (0 : Nat) = if (1 : Nat) = 1 then 0 else s.val; rw [if_pos rfl]
  · exact shapeCast_apply w h1 _ _ (by
      rw [Shape.rowMajor_val_one, Shape.rowMajor_val_two]
      show r.val = r.val * 1 + 0
      omega)

theorem pv_lhs0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

theorem pv_lhs1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q

theorem pv_rhs0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

theorem pv_rhs1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The product of a 1024 × 2048 block with a 2048 × 64 block, accumulated into zero, at entry (r, d):
    the sum over the 2048 shared coordinates. -/
theorem pv_apply (A : FVec Ideal S1024x2048 .bf16) (B : FVec Ideal S2048x64 .bf16) (r : Fin 1024) (d : Fin 64) :
    matmul (F := Ideal) dot_S1024x2048_S2048x64_S1024x64_1_0_0_1_n_n none A B (constant S1024x64 .f32 0x00000000#32) (ix2 r d)
      = ∑ s : Fin 2048, A (ix2 r s) * B (ix2 s d) := by
  show FloatOps.matmul dot_S1024x2048_S2048x64_S1024x64_1_0_0_1_n_n none A B (constant S1024x64 .f32 0x00000000#32) (ix2 r d) = _
  rw [Ideal.matmul_constant_zero_apply,
    ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d)
      ((contrEquiv1 dot_S1024x2048_S2048x64_S1024x64_1_0_0_1_n_n 2048 rfl rfl).symm k) = ix2 r k :=
    funext fun a => Fin.ext (by
      match a with
      | ⟨0, _⟩ => exact pv_lhs0 _ _
      | ⟨1, _⟩ => exact (pv_lhs1 _ _).trans hk)
  have er : dot_S1024x2048_S2048x64_S1024x64_1_0_0_1_n_n.rhsIdx (ix2 r d)
      ((contrEquiv1 dot_S1024x2048_S2048x64_S1024x64_1_0_0_1_n_n 2048 rfl rfl).symm k) = ix2 k d :=
    funext fun a => Fin.ext (by
      match a with
      | ⟨0, _⟩ => exact (pv_rhs0 _ _).trans hk
      | ⟨1, _⟩ => exact pv_rhs1 _ _)
  rw [el, er]

/-- The exponential of a block reads entrywise. -/
theorem exp_apply {s : Shape} {φ : FTy} (a : FVec Ideal s φ) (i : s.Idx) : exp a i = Ideal.exp (a i) := rfl

end AttnBody

open AttnBody

/-- Entry (0, r, d) of the attention body's result is the softmax-weighted sum `attnRow` of query row `r`, the key
    block and value column `d`.  Outermost first: the restored unit axis and the final product read as a sum over the
    2048 keys of weight times value; each weight is the exponential over the row's sum of exponentials; each
    exponent is the scaled logit minus the row's maximum; each scaled logit is the sum over the 64 shared coordinates
    times 1/8. -/
theorem attn_pay (x0 : FVec Ideal S1x1024x64 .bf16) (x1 : FVec Ideal S1x64x2048 .bf16) (x2 : FVec Ideal S1x2048x64 .bf16)
    (r : Fin 1024) (d : Fin 64) :
    Cert.KernelIdeal.Gen.k3_pay1 (F := Ideal) x0 x1 x2 (ix3 (0 : Fin 1) r d)
      = attnRow (fun j => x0 (ix3 (0 : Fin 1) r j)) (fun j s => x1 (ix3 (0 : Fin 1) j s)) (fun s => x2 (ix3 (0 : Fin 1) s d)) := by
  unfold Cert.KernelIdeal.Gen.k3_pay1 attnRow prob ew rmax logit scaleC
  -- the outer casts, the second product and the division, entrywise
  simp only [shapeCast_ab_1ab_apply, truncf_apply, pv_apply, divf_apply, keepdims_apply, shapeCast_1ab_ab_apply]
  -- the normaliser: the row's sum of exponentials
  rw [rowsum_apply]
  simp only [exp_apply, subf_apply, keepdims_apply, mulf_apply, broadcast_apply, qk_apply, shapeCast_1ab_ab_apply,
    Ideal.ofBits_def]
  -- the row's maximum of the scaled logits
  rw [rowmax_apply]
  simp only [mulf_apply, broadcast_apply, qk_apply, shapeCast_1ab_ab_apply, Ideal.ofBits_def]

end Cert.MHA

end
-- ==== Proof.Region3.lean ====
/-
  What the attention region leaves in its output array.

  The region's grid is 32 head-batches by 2 query tiles.  Point (g, qi) loads query rows 1024·qi … 1024·qi+1023 of
  head-batch g, all of g's keys (64 × 2048) and all of g's values (2048 × 64), and writes back the same rows of g's
  output.  Its body's stored value at (r, d) is the attention row of query row r against the keys and column d of the
  values.  The 64 blocks tile the output array, so it ends as ONE function of the three arrays the region found.
-/
import proofs.«164350_j43611097924070_2_alg».proof.Proof.Gen.KernelIdeal.Frame
import proofs.«164350_j43611097924070_2_alg».proof.Proof.Spec
import proofs.«164350_j43611097924070_2_alg».proof.Proof.LinG
import proofs.«164350_j43611097924070_2_alg».proof.Proof.AttnBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.MHA
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the 64 points: the query's and the output's blocks move together over head-batch and
    query tile; the keys' and the values' blocks follow the head-batch only. -/
theorem idx_facts3 : ∀ t : Fin cfg3.N, win3_0.index t (0 : Fin 3) = win3_3.index t (0 : Fin 3)
    ∧ win3_0.index t (1 : Fin 3) = win3_3.index t (1 : Fin 3) ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (2 : Fin 3) = 0 ∧ win3_3.index t (0 : Fin 3) ≤ 31 ∧ win3_3.index t (1 : Fin 3) ≤ 1 :=
  (by decide +kernel : ∀ t : Fin grid3.N, _)

/-- Every (head-batch, query tile) block is some point's. -/
theorem idx_onto3 : ∀ (q0 : Fin 32) (q1 : Fin 2), ∃ t : Fin cfg3.N, win3_3.index t = ![q0.val, q1.val, 0] :=
  (by decide +kernel : ∀ (q0 : Fin 32) (q1 : Fin 2), ∃ t : Fin grid3.N, win3_3.index t = ![q0.val, q1.val, 0])

/-- What point t writes back is block t of the whole-array function. -/
theorem flushed3_eq (c : Dev nD) (t : Fin cfg3.N) :
    (dat3 V c).flushed 3 t = ((cfg3.win 3).blk t).view.read (Elt Ideal) (attnG (V c main_v24) (V c main_v25) (V c main_v26)) := by
  show (cfg3.win 3).cut (grid3.coords t) ((dat3 V c).after 3 t) = _
  rw [after3_3]
  unfold out3_3
  rw [View.canon_unit_zero hz3]
  simp only [View.ld_unit_zero (S := S1x1024x64) hz3, View.ld_unit_zero (S := S1x64x2048) hz3, View.ld_unit_zero (S := S1x2048x64) hz3]
  obtain ⟨e0, e1, e2, e3, e4, e5, e6, e7, e8, e9, e10, e11⟩ := idx_facts3 t
  funext j
  obtain ⟨u, r, d, rfl⟩ : ∃ (u : Fin 1) (r : Fin 1024) (d : Fin 64), j = ix3 u r d := ⟨j 0, j 1, j 2, eq_ix3 j⟩
  obtain rfl : u = 0 := Subsingleton.elim _ _
  refine (attn_pay _ _ _ r d).trans ?_
  show attnRow (fun j => V c main_v24 (((cfg3.win 0).blk t).view.emb (ix3 (0 : Fin 1) r j)))
      (fun j s => V c main_v25 (((cfg3.win 1).blk t).view.emb (ix3 (0 : Fin 1) j s)))
      (fun s => V c main_v26 (((cfg3.win 2).blk t).view.emb (ix3 (0 : Fin 1) s d)))
    = attnG (V c main_v24) (V c main_v25) (V c main_v26) (((cfg3.win 3).blk t).view.emb (ix3 (0 : Fin 1) r d))
  unfold attnG
  have hr : r.val < 1024 := r.isLt
  have hd : d.val < 64 := d.isLt
  have h0 : ∀ j : Fin 64, ((cfg3.win 0).blk t).view.emb (ix3 (0 : Fin 1) r j)
      = ix3 (⟨((((cfg3.win 3).blk t).view.emb (ix3 (0 : Fin 1) r d)) 0).val, ((((cfg3.win 3).blk t).view.emb (ix3 (0 : Fin 1) r d)) 0).isLt⟩ : Fin 32)
          (⟨((((cfg3.win 3).blk t).view.emb (ix3 (0 : Fin 1) r d)) 1).val, ((((cfg3.win 3).blk t).view.emb (ix3 (0 : Fin 1) r d)) 1).isLt⟩ : Fin 2048) j := by
    intro j; funext a; apply Fin.ext
    match a with
    | ⟨0, _⟩ => show win3_0.index t (0 : Fin 3) * 1 + 1 * 0 = win3_3.index t (0 : Fin 3) * 1 + 1 * 0; omega
    | ⟨1, _⟩ => show win3_0.index t (1 : Fin 3) * 1024 + 1 * r.val = win3_3.index t (1 : Fin 3) * 1024 + 1 * r.val; omega
    | ⟨2, _⟩ => show win3_0.index t (2 : Fin 3) * 64 + 1 * j.val = j.val; omega
  have h1 : ∀ (j : Fin 64) (s : Fin 2048), ((cfg3.win 1).blk t).view.emb (ix3 (0 : Fin 1) j s)
      = ix3 (⟨((((cfg3.win 3).blk t).view.emb (ix3 (0 : Fin 1) r d)) 0).val, ((((cfg3.win 3).blk t).view.emb (ix3 (0 : Fin 1) r d)) 0).isLt⟩ : Fin 32) j s := by
    intro j s; funext a; apply Fin.ext
    match a with
    | ⟨0, _⟩ => show win3_1.index t (0 : Fin 3) * 1 + 1 * 0 = win3_3.index t (0 : Fin 3) * 1 + 1 * 0; omega
    | ⟨1, _⟩ => show win3_1.index t (1 : Fin 3) * 64 + 1 * j.val = j.val; omega
    | ⟨2, _⟩ => show win3_1.index t (2 : Fin 3) * 2048 + 1 * s.val = s.val; omega
  have h2 : ∀ s : Fin 2048, ((cfg3.win 2).blk t).view.emb (ix3 (0 : Fin 1) s d)
      = ix3 (⟨((((cfg3.win 3).blk t).view.emb (ix3 (0 : Fin 1) r d)) 0).val, ((((cfg3.win 3).blk t).view.emb (ix3 (0 : Fin 1) r d)) 0).isLt⟩ : Fin 32) s
          (⟨((((cfg3.win 3).blk t).view.emb (ix3 (0 : Fin 1) r d)) 2).val, ((((cfg3.win 3).blk t).view.emb (ix3 (0 : Fin 1) r d)) 2).isLt⟩ : Fin 64) := by
    intro s; funext a; apply Fin.ext
    match a with
    | ⟨0, _⟩ => show win3_2.index t (0 : Fin 3) * 1 + 1 * 0 = win3_3.index t (0 : Fin 3) * 1 + 1 * 0; omega
    | ⟨1, _⟩ => show win3_2.index t (1 : Fin 3) * 2048 + 1 * s.val = s.val; omega
    | ⟨2, _⟩ => show win3_2.index t (2 : Fin 3) * 64 + 1 * d.val = win3_3.index t (2 : Fin 3) * 64 + 1 * d.val; omega
  simp only [h0, h1, h2]

/-- An index of the output array is in point t's block iff each coordinate is in the block's range. -/
theorem mem_blk3 (t : Fin cfg3.N) (i : S32x2048x64.Idx) :
    i ∈ ((cfg3.win 3).blk t).view.set ↔ ∀ a : Fin 3, win3_3.index t a * S1x1024x64.size a ≤ (i a).val ∧ (i a).val < win3_3.index t a * S1x1024x64.size a + S1x1024x64.size a := by
  show i ∈ ((View.whole main_v27).slice (win3_3.rect t)).set ↔ _
  rw [View.set_slice_whole, Rect.mem_set_unit]
  exact Iff.rfl

/-- The 64 blocks cover the array. -/
theorem cover3 (i : S32x2048x64.Idx) : ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  obtain ⟨t, ht⟩ := idx_onto3 ⟨(i 0).val, hi0⟩ ⟨(i 1).val / 1024, by omega⟩
  have q0 : win3_3.index t (0 : Fin 3) = (i 0).val := congrFun ht 0
  have q1 : win3_3.index t (1 : Fin 3) = (i 1).val / 1024 := congrFun ht 1
  have q2 : win3_3.index t (2 : Fin 3) = 0 := congrFun ht 2
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 64 ≤ (i 2).val ∧ (i 2).val < win3_3.index t (2 : Fin 3) * 64 + 64; omega

/-- The output array after the region: the attention of the three arrays the region found. -/
theorem final3 (c : Dev nD) : (dat3 V c).arrAt 3 cfg3.N = attnG (V c main_v24) (V c main_v25) (V c main_v26) :=
  (dat3 V c).arrAt_eq_of_cover 3 _ (fun t _ => flushed3_eq V c t) cover3

end Cert.KernelIdeal.Blocks

end
-- ==== Proof.Region4.lean ====
/-
  What the last projection region leaves in its output array.

  The region runs its body at four grid points; point t loads rows 1024·t … 1024·t+1023 of the input array, the whole
  (transposed) weight matrix and the bias row, and writes back the same rows of the output.  Its body's stored value
  at (r, o) is the input row r against the weight column o, plus the bias entry o.  Since the four blocks tile the
  array, the array ends as ONE function of the three arrays the region found: entry (i, o) is row i of the input
  against column o of the weights, plus the bias entry.
-/
import proofs.«164350_j43611097924070_2_alg».proof.Proof.Gen.KernelIdeal.Frame
import proofs.«164350_j43611097924070_2_alg».proof.Proof.Spec
import proofs.«164350_j43611097924070_2_alg».proof.Proof.LinG
import proofs.«164350_j43611097924070_2_alg».proof.Proof.LinBody
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.MHA
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the four points: the input's and the output's row blocks move together, the weights'
    and the bias's blocks stay at the origin. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 3 :=
  (by decide +kernel : ∀ t : Fin grid4.N, _)

/-- Every row block is some point's. -/
theorem idx_onto4 : ∀ q0 : Fin 4, ∃ t : Fin cfg4.N, win4_3.index t = ![q0.val, 0] :=
  (by decide +kernel : ∀ q0 : Fin 4, ∃ t : Fin grid4.N, win4_3.index t = ![q0.val, 0])

/-- What point t writes back is block t of the whole-array function. -/
theorem flushed4_eq (c : Dev nD) (t : Fin cfg4.N) :
    (dat4 V c).flushed 3 t = ((cfg4.win 3).blk t).view.read (Elt Ideal) (linG (V c main_v30) (V c main_v10) (V c main_v31)) := by
  show (cfg4.win 3).cut (grid4.coords t) ((dat4 V c).after 3 t) = _
  rw [after4_3]
  unfold out4_3
  rw [View.canon_unit_zero hz2]
  simp only [View.ld_unit_zero (S := S1024x1024) hz2, View.ld_unit_zero (S := S1x1024) hz2]
  obtain ⟨e0, e1, e2, e3, e4, e5, e6, e7⟩ := idx_facts4 t
  funext j
  obtain ⟨r, o, rfl⟩ : ∃ (r o : Fin 1024), j = ix2 r o := ⟨j 0, j 1, eq_ix2 j⟩
  refine (lin_pay4 _ _ _ r o).trans ?_
  show linRow (fun k => V c main_v30 (((cfg4.win 0).blk t).view.emb (ix2 r k)))
      (fun k => V c main_v10 (((cfg4.win 1).blk t).view.emb (ix2 k o)))
      (V c main_v31 (((cfg4.win 2).blk t).view.emb (ix2 (0 : Fin 1) o)))
    = linG (V c main_v30) (V c main_v10) (V c main_v31) (((cfg4.win 3).blk t).view.emb (ix2 r o))
  unfold linG
  have hr : r.val < 1024 := r.isLt
  have ho : o.val < 1024 := o.isLt
  have h0 : ∀ k : Fin 1024, ((cfg4.win 0).blk t).view.emb (ix2 r k)
      = ix2 (⟨((((cfg4.win 3).blk t).view.emb (ix2 r o)) 0).val, ((((cfg4.win 3).blk t).view.emb (ix2 r o)) 0).isLt⟩ : Fin 4096) k := by
    intro k; funext a; apply Fin.ext
    match a with
    | ⟨0, _⟩ => show win4_0.index t (0 : Fin 2) * 1024 + 1 * r.val = win4_3.index t (0 : Fin 2) * 1024 + 1 * r.val; omega
    | ⟨1, _⟩ => show win4_0.index t (1 : Fin 2) * 1024 + 1 * k.val = k.val; omega
  have h1 : ∀ k : Fin 1024, ((cfg4.win 1).blk t).view.emb (ix2 k o)
      = ix2 k (⟨((((cfg4.win 3).blk t).view.emb (ix2 r o)) 1).val, ((((cfg4.win 3).blk t).view.emb (ix2 r o)) 1).isLt⟩ : Fin 1024) := by
    intro k; funext a; apply Fin.ext
    match a with
    | ⟨0, _⟩ => show win4_1.index t (0 : Fin 2) * 1024 + 1 * k.val = k.val; omega
    | ⟨1, _⟩ => show win4_1.index t (1 : Fin 2) * 1024 + 1 * o.val = win4_3.index t (1 : Fin 2) * 1024 + 1 * o.val; omega
  have h2 : ((cfg4.win 2).blk t).view.emb (ix2 (0 : Fin 1) o)
      = ix2 (0 : Fin 1) (⟨((((cfg4.win 3).blk t).view.emb (ix2 r o)) 1).val, ((((cfg4.win 3).blk t).view.emb (ix2 r o)) 1).isLt⟩ : Fin 1024) := by
    funext a; apply Fin.ext
    match a with
    | ⟨0, _⟩ => show win4_2.index t (0 : Fin 2) * 1 + 1 * 0 = 0; omega
    | ⟨1, _⟩ => show win4_2.index t (1 : Fin 2) * 1024 + 1 * o.val = win4_3.index t (1 : Fin 2) * 1024 + 1 * o.val; omega
  simp only [h0, h1, h2]

/-- An index of the output array is in point t's block iff each coordinate is in the block's range. -/
theorem mem_blk4 (t : Fin cfg4.N) (i : S4096x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v32).slice (win4_3.rect t)).set ↔ _
  rw [View.set_slice_whole, Rect.mem_set_unit]
  exact Iff.rfl

/-- The four row blocks cover the array. -/
theorem cover4 (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto4 ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The output array after the region: the projection of the three arrays the region found. -/
theorem final4 (c : Dev nD) : (dat4 V c).arrAt 3 cfg4.N = linG (V c main_v30) (V c main_v10) (V c main_v31) :=
  (dat4 V c).arrAt_eq_of_cover 3 _ (fun t _ => flushed4_eq V c t) cover4

end Cert.KernelIdeal.Blocks

end
-- ==== Proof.LinRef.lean ====
/-
  The reference's four linear layers, read at one output entry.

  Each is a contraction of the input's last axis with the weight's second axis, plus the bias broadcast
  over the leading axes.  At the ideal values the contraction is the exact sum over the contracted
  coordinate, so the entry at batch `p`, position `l`, feature `o` is `Σ_k x p l k · w o k + b o`:
  one entry of the linear layer, the weight read along its row `o`.
-/
import proofs.«164350_j43611097924070_2_alg».proof.Proof.Gen.ReferenceIdeal.Read
import proofs.«164350_j43611097924070_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.MHA

open Idealize.ShloMosaic Idealize.ShloMosaic.ValueIdx Cert.ReferenceIdeal Cert.ReferenceIdeal.Read

variable [Cert.ReferenceIdeal.Facts]

/-- The query projection at entry `(p, l, o)`. -/
theorem lin_ref3 (x : FVec Ideal S2x2048x1024 .f32) (w : FVec Ideal S1024x1024 .f32) (b : FVec Ideal S1024 .f32) (p : Fin 2) (l : Fin 2048) (o : Fin 1024) :
    val_main_v3 (F := Ideal) x w b (ix3 p l o)
      = linRow (fun k => x (ix3 p l k)) (fun k => w (ix2 o k)) (b (ix1 o)) := by
  have e1 : ∀ k : Fin 1024, lidx_main_v0 (ix3 p l o) k = ix3 p l k := fun k =>
    funext fun a => Fin.ext (by match a with | ⟨0, _⟩ => rfl | ⟨1, _⟩ => rfl | ⟨2, _⟩ => rfl)
  have e2 : ∀ k : Fin 1024, ridx_main_v0 (ix3 p l o) k = ix2 o k := fun k =>
    funext fun a => Fin.ext (by match a with | ⟨0, _⟩ => rfl | ⟨1, _⟩ => rfl)
  have e3 : idx_main_v1 (idx_main_v2 (ix3 p l o)) = ix1 o :=
    funext fun a => Fin.ext (by match a with | ⟨0, _⟩ => rfl)
  rw [val_main_v3_apply, val_main_v0_apply, val_main_v2_apply, val_main_v1_apply, Ideal.addf_def, e3]
  unfold linRow
  refine congrArg (· + b (ix1 o)) (Finset.sum_congr rfl fun k _ => ?_)
  rw [e1 k, e2 k]

/-- The key projection at entry `(p, l, o)`. -/
theorem lin_ref8 (x : FVec Ideal S2x2048x1024 .f32) (w : FVec Ideal S1024x1024 .f32) (b : FVec Ideal S1024 .f32) (p : Fin 2) (l : Fin 2048) (o : Fin 1024) :
    val_main_v8 (F := Ideal) x w b (ix3 p l o)
      = linRow (fun k => x (ix3 p l k)) (fun k => w (ix2 o k)) (b (ix1 o)) := by
  have e1 : ∀ k : Fin 1024, lidx_main_v5 (ix3 p l o) k = ix3 p l k := fun k =>
    funext fun a => Fin.ext (by match a with | ⟨0, _⟩ => rfl | ⟨1, _⟩ => rfl | ⟨2, _⟩ => rfl)
  have e2 : ∀ k : Fin 1024, ridx_main_v5 (ix3 p l o) k = ix2 o k := fun k =>
    funext fun a => Fin.ext (by match a with | ⟨0, _⟩ => rfl | ⟨1, _⟩ => rfl)
  have e3 : idx_main_v6 (idx_main_v7 (ix3 p l o)) = ix1 o :=
    funext fun a => Fin.ext (by match a with | ⟨0, _⟩ => rfl)
  rw [val_main_v8_apply, val_main_v5_apply, val_main_v7_apply, val_main_v6_apply, Ideal.addf_def, e3]
  unfold linRow
  refine congrArg (· + b (ix1 o)) (Finset.sum_congr rfl fun k _ => ?_)
  rw [e1 k, e2 k]

/-- The value projection at entry `(p, l, o)`. -/
theorem lin_ref13 (x : FVec Ideal S2x2048x1024 .f32) (w : FVec Ideal S1024x1024 .f32) (b : FVec Ideal S1024 .f32) (p : Fin 2) (l : Fin 2048) (o : Fin 1024) :
    val_main_v13 (F := Ideal) x w b (ix3 p l o)
      = linRow (fun k => x (ix3 p l k)) (fun k => w (ix2 o k)) (b (ix1 o)) := by
  have e1 : ∀ k : Fin 1024, lidx_main_v10 (ix3 p l o) k = ix3 p l k := fun k =>
    funext fun a => Fin.ext (by match a with | ⟨0, _⟩ => rfl | ⟨1, _⟩ => rfl | ⟨2, _⟩ => rfl)
  have e2 : ∀ k : Fin 1024, ridx_main_v10 (ix3 p l o) k = ix2 o k := fun k =>
    funext fun a => Fin.ext (by match a with | ⟨0, _⟩ => rfl | ⟨1, _⟩ => rfl)
  have e3 : idx_main_v11 (idx_main_v12 (ix3 p l o)) = ix1 o :=
    funext fun a => Fin.ext (by match a with | ⟨0, _⟩ => rfl)
  rw [val_main_v13_apply, val_main_v10_apply, val_main_v12_apply, val_main_v11_apply, Ideal.addf_def, e3]
  unfold linRow
  refine congrArg (· + b (ix1 o)) (Finset.sum_congr rfl fun k _ => ?_)
  rw [e1 k, e2 k]

/-- The output projection at entry `(p, l, o)`: the same sum, over the merged attention output. -/
theorem lin_ref35 (x0 x1 x2 : FVec Ideal S2x2048x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (p : Fin 2) (l : Fin 2048) (o : Fin 1024) :
    val_main_v35 (F := Ideal) x0 x1 x2 x3 x4 x5 x6 x7 x8 x9 x10 (ix3 p l o)
      = linRow (fun k => val_main_v31 (F := Ideal) x0 x1 x2 x3 x4 x5 x6 x7 x8 (ix3 p l k)) (fun k => x9 (ix2 o k)) (x10 (ix1 o)) := by
  have e1 : ∀ k : Fin 1024, lidx_main_v32 (ix3 p l o) k = ix3 p l k := fun k =>
    funext fun a => Fin.ext (by match a with | ⟨0, _⟩ => rfl | ⟨1, _⟩ => rfl | ⟨2, _⟩ => rfl)
  have e2 : ∀ k : Fin 1024, ridx_main_v32 (ix3 p l o) k = ix2 o k := fun k =>
    funext fun a => Fin.ext (by match a with | ⟨0, _⟩ => rfl | ⟨1, _⟩ => rfl)
  have e3 : idx_main_v33 (idx_main_v34 (ix3 p l o)) = ix1 o :=
    funext fun a => Fin.ext (by match a with | ⟨0, _⟩ => rfl)
  rw [val_main_v35_apply, val_main_v32_apply, val_main_v34_apply, val_main_v33_apply, Ideal.addf_def, e3]
  unfold linRow
  refine congrArg (· + x10 (ix1 o)) (Finset.sum_congr rfl fun k _ => ?_)
  rw [e1 k, e2 k]

end Cert.MHA

end
-- ==== Proof.AttnRef.lean ====
/-
  The reference's attention output, read at one index.

  The reference computes, for batch p, head h, query position l and feature d: the logits
  (Σ_j q j · K j s) / 8 over the keys s, their maximum over s taken from −∞ (and once more against −∞),
  the exponentials of the logits less that maximum, their sum from 0, the quotients, and the sum over s of
  the quotients against the value column.  Three facts of the extended reals turn this into the row form
  attnRow: dividing by 8 is multiplying by the pattern of 0.125; the maximum with −∞ is the identity; adding
  to the pattern of 0.0 is the identity.  Everything else is reading each operation at an index.
-/
import proofs.«164350_j43611097924070_2_alg».proof.Proof.Gen.ReferenceIdeal.Read
import proofs.«164350_j43611097924070_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.MHA

open Idealize.ShloMosaic Idealize.ShloMosaic.ValueIdx Cert.ReferenceIdeal Cert.ReferenceIdeal.Facts₀ Cert.ReferenceIdeal.Read

/-! ## Three facts of the extended reals -/

/-- The pattern of 8.0 denotes the real 8. -/
theorem ofBits_eight : Ideal.ofBits .f32 0x41000000#32 = ((8 : ℝ) : EReal) := by
  simp [Ideal.ofBits, Ideal.ieee, -EReal.coe_mul]; norm_num

/-- The scale, the pattern of 0.125, denotes the real 1/8. -/
theorem scaleC_eq : scaleC = ((1 / 8 : ℝ) : EReal) := by
  unfold scaleC
  simp [Ideal.ofBits, Ideal.ieee, -EReal.coe_mul]; norm_num

/-- Dividing by 8 is multiplying by the scale, at the infinities too. -/
theorem div_eight (x : EReal) : Ideal.div x (Ideal.ofBits .f32 0x41000000#32) = x * scaleC := by
  rw [ofBits_eight, scaleC_eq]
  exact Ideal.div_coe (by norm_num : (8 : ℝ) ≠ 0) x

/-- −∞ is the least extended real, so the maximum with it is the other operand. -/
theorem max_negInf (y : EReal) : max negInf y = y := by
  unfold negInf
  simp [Ideal.ofBits, Ideal.ieee]

/-- Adding to the pattern of 0.0 changes nothing. -/
theorem zero_bits_add (y : EReal) : Ideal.ofBits .f32 0x00000000#32 + y = y := by
  rw [Ideal.ofBits_zero_f32, zero_add]

/-! ## The index functions at indices built from coordinates -/

theorem lidx30_ix (p : Fin 2) (h : Fin 16) (l : Fin 2048) (d : Fin 64) (s : Fin 2048) :
    lidx_main_v30 (ix4 p h l d) s = ix4 p h l s :=
  funext fun a => Fin.ext (by match a with | ⟨0, _⟩ => rfl | ⟨1, _⟩ => rfl | ⟨2, _⟩ => rfl | ⟨3, _⟩ => rfl)

theorem ridx30_ix (p : Fin 2) (h : Fin 16) (l : Fin 2048) (d : Fin 64) (s : Fin 2048) :
    ridx_main_v30 (ix4 p h l d) s = ix4 p h s d :=
  funext fun a => Fin.ext (by match a with | ⟨0, _⟩ => rfl | ⟨1, _⟩ => rfl | ⟨2, _⟩ => rfl | ⟨3, _⟩ => rfl)

theorem lidx16_ix (p : Fin 2) (h : Fin 16) (l : Fin 2048) (s : Fin 2048) (j : Fin 64) :
    lidx_main_v16 (ix4 p h l s) j = ix4 p h l j :=
  funext fun a => Fin.ext (by match a with | ⟨0, _⟩ => rfl | ⟨1, _⟩ => rfl | ⟨2, _⟩ => rfl | ⟨3, _⟩ => rfl)

theorem ridx16_ix (p : Fin 2) (h : Fin 16) (l : Fin 2048) (s : Fin 2048) (j : Fin 64) :
    ridx_main_v16 (ix4 p h l s) j = ix4 p h j s :=
  funext fun a => Fin.ext (by match a with | ⟨0, _⟩ => rfl | ⟨1, _⟩ => rfl | ⟨2, _⟩ => rfl | ⟨3, _⟩ => rfl)

theorem idx26_ix (p : Fin 2) (h : Fin 16) (l : Fin 2048) (s : Fin 2048) :
    idx_main_v26 (ix3 p h l) s = ix4 p h l s :=
  funext fun a => Fin.ext (by match a with | ⟨0, _⟩ => rfl | ⟨1, _⟩ => rfl | ⟨2, _⟩ => rfl | ⟨3, _⟩ => rfl)

theorem idx22_23_ix (p : Fin 2) (h : Fin 16) (l : Fin 2048) (s : Fin 2048) :
    idx_main_v22 (idx_main_v23 (ix4 p h l s)) = ix3 p h l :=
  funext fun a => Fin.ext (by match a with | ⟨0, _⟩ => rfl | ⟨1, _⟩ => rfl | ⟨2, _⟩ => rfl)

theorem idx27_28_ix (p : Fin 2) (h : Fin 16) (l : Fin 2048) (s : Fin 2048) :
    idx_main_v27 (idx_main_v28 (ix4 p h l s)) = ix3 p h l :=
  funext fun a => Fin.ext (by match a with | ⟨0, _⟩ => rfl | ⟨1, _⟩ => rfl | ⟨2, _⟩ => rfl)

/-- The reduced index (p, h, l) with key k put back on the last axis is (p, h, l, k). -/
theorem lift_ix3 (hR : S2x16x2048x2048.Reduces [3] S2x16x2048) (p : Fin 2) (h : Fin 16) (l : Fin 2048)
    (k : Fin 2048) :
    hR.lift (ix3 p h l) k = ix4 p h l k :=
  funext fun a => Fin.ext (by match a with | ⟨0, _⟩ => rfl | ⟨1, _⟩ => rfl | ⟨2, _⟩ => rfl | ⟨3, _⟩ => rfl)

/-! ## The stages, outermost last -/

section Stages

variable [Cert.ReferenceIdeal.Facts]
variable (x0 x1 x2 : FVec Ideal S2x2048x1024 .f32) (x3 : FVec Ideal S1024x1024 .f32) (x4 : FVec Ideal S1024 .f32)
  (x5 : FVec Ideal S1024x1024 .f32) (x6 : FVec Ideal S1024 .f32) (x7 : FVec Ideal S1024x1024 .f32) (x8 : FVec Ideal S1024 .f32)
  (p : Fin 2) (h : Fin 16) (l : Fin 2048)

/-- The query row (p, h, l) of the reference. -/
abbrev refQ : Fin 64 → EReal := fun j => val_main_v4 (F := Ideal) x0 x3 x4 (ix4 p h l j)
/-- The keys of (p, h) in the reference. -/
abbrev refK : Fin 64 → Fin 2048 → EReal := fun j s => val_main_v15 (F := Ideal) x1 x5 x6 (ix4 p h j s)

/-- The scaled logits: the contraction over the 64 features, divided by 8. -/
theorem v18_ix (s : Fin 2048) :
    val_main_v18 (F := Ideal) x0 x1 x3 x4 x5 x6 (ix4 p h l s) = logit (refQ x0 x3 x4 p h l) (refK x1 x5 x6 p h) s := by
  rw [val_main_v18_apply, val_main_v16_apply, val_main_v17_apply, val_main_cst_apply]
  simp only [Ideal.hostDivf_def, Ideal.ofBits_def, lidx16_ix, ridx16_ix]
  rw [div_eight]
  rfl

/-- The maximum over the keys, from −∞: the host's reduce read as a fold over the last axis. -/
theorem v19_ix :
    val_main_v19 (F := Ideal) x0 x1 x3 x4 x5 x6 (ix3 p h l) = rmax (logit (refQ x0 x3 x4 p h l) (refK x1 x5 x6 p h)) := by
  have hR : S2x16x2048x2048.Reduces [3] S2x16x2048 := by decide
  unfold val_main_v19
  rw [Host.reduce_eq_fold_single FloatOps.maximumf _ _ reducesTo_S2x16x2048x2048_S2x16x2048_d3 hR h_S_]
  rw [val_main_cst_0_apply]
  have hf : (val_main_v18 (F := Ideal) x0 x1 x3 x4 x5 x6 ∘ hR.lift (ix3 p h l))
      = logit (refQ x0 x3 x4 p h l) (refK x1 x5 x6 p h) :=
    funext fun k : Fin 2048 => (congrArg (val_main_v18 (F := Ideal) x0 x1 x3 x4 x5 x6) (lift_ix3 hR p h l k)).trans
      (v18_ix x0 x1 x3 x4 x5 x6 p h l k)
  unfold rmax negInf
  exact congrArg (fun f => Finset.fold max (Ideal.ofBits .f32 0xFF800000#32) f (Finset.univ : Finset (Fin 2048))) hf

/-- The maximum once more against −∞. -/
theorem v21_ix :
    val_main_v21 (F := Ideal) x0 x1 x3 x4 x5 x6 (ix3 p h l) = rmax (logit (refQ x0 x3 x4 p h l) (refK x1 x5 x6 p h)) := by
  rw [val_main_v21_apply, val_main_v20_apply, val_main_cst_1_apply, v19_ix]
  simp only [Ideal.maximumf_def, Ideal.ofBits_def]
  exact max_negInf _

/-- The maximum, broadcast back over the keys. -/
theorem v23_ix (s : Fin 2048) :
    val_main_v23 (F := Ideal) x0 x1 x3 x4 x5 x6 (ix4 p h l s) = rmax (logit (refQ x0 x3 x4 p h l) (refK x1 x5 x6 p h)) := by
  rw [val_main_v23_apply, val_main_v22_apply, idx22_23_ix, v21_ix]

/-- The unnormalised weights. -/
theorem v25_ix (s : Fin 2048) :
    val_main_v25 (F := Ideal) x0 x1 x3 x4 x5 x6 (ix4 p h l s) = ew (logit (refQ x0 x3 x4 p h l) (refK x1 x5 x6 p h)) s := by
  rw [val_main_v25_apply, val_main_v24_apply, v18_ix, v23_ix]
  simp only [Ideal.hostUnary_exp_def, Ideal.subf_def]
  rfl

/-- The normaliser: the sum of the weights over the keys, from 0. -/
theorem v26_ix :
    val_main_v26 (F := Ideal) x0 x1 x3 x4 x5 x6 (ix3 p h l)
      = ∑ s : Fin 2048, ew (logit (refQ x0 x3 x4 p h l) (refK x1 x5 x6 p h)) s := by
  rw [val_main_v26_apply, val_main_cst_2_apply]
  simp only [Ideal.ofBits_def, idx26_ix, v25_ix]
  exact zero_bits_add _

/-- The normaliser, broadcast back over the keys. -/
theorem v28_ix (s : Fin 2048) :
    val_main_v28 (F := Ideal) x0 x1 x3 x4 x5 x6 (ix4 p h l s)
      = ∑ s' : Fin 2048, ew (logit (refQ x0 x3 x4 p h l) (refK x1 x5 x6 p h)) s' := by
  rw [val_main_v28_apply, val_main_v27_apply, idx27_28_ix, v26_ix]

/-- The softmax weights. -/
theorem v29_ix (s : Fin 2048) :
    val_main_v29 (F := Ideal) x0 x1 x3 x4 x5 x6 (ix4 p h l s) = prob (logit (refQ x0 x3 x4 p h l) (refK x1 x5 x6 p h)) s := by
  rw [val_main_v29_apply, v25_ix, v28_ix]
  simp only [Ideal.hostDivf_def]
  rfl

end Stages

/-- The reference's attention output at (p, h, l, d) is the row form of its own query row, keys and value column. -/
theorem attn_ref [Cert.ReferenceIdeal.Facts] (x0 x1 x2 : FVec Ideal S2x2048x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (p : Fin 2) (h : Fin 16) (l : Fin 2048) (d : Fin 64) :
    val_main_v30 (F := Ideal) x0 x1 x2 x3 x4 x5 x6 x7 x8 (ix4 p h l d)
      = attnRow (fun j => val_main_v4 (F := Ideal) x0 x3 x4 (ix4 p h l j)) (fun j s => val_main_v15 (F := Ideal) x1 x5 x6 (ix4 p h j s)) (fun s => val_main_v14 (F := Ideal) x2 x7 x8 (ix4 p h s d)) := by
  rw [val_main_v30_apply]
  simp only [lidx30_ix, ridx30_ix, v29_ix]
  rfl

end Cert.MHA

end
-- ==== Proof.Bridge.lean ====
/-
  The two whole-array functions against the reference's stages.

  A projection region's array, when its operands are the re-laid argument arrays, is the reference's projection
  stage re-laid as [4096, 1024]: both are, entry by entry, an input row against a weight row plus a bias entry, the
  kernel's weight matrix being the transposed one read at (k, o) and the reference's the original read at (o, k).
  The attention region's array, when its operands are the three projections re-laid per head-batch, is the
  reference's attention stage re-laid as [32, 2048, 64]: a reshape keeps the row-major position, so entry (g, l, j)
  of the one is entry (g / 16, g % 16, l, j) of the other, and both sides compute the same attention row.
-/
import proofs.«164350_j43611097924070_2_alg».proof.Proof.LinG
import proofs.«164350_j43611097924070_2_alg».proof.Proof.LinRef
import proofs.«164350_j43611097924070_2_alg».proof.Proof.AttnRef
import Idealize.ShloMosaic.Lib.ValueIdx
import Idealize.ShloMosaic.Lib.Pipeline.Value
import Idealize.ShloMosaic.Lib.ValueLayout

set_option maxRecDepth 16384

noncomputable section

namespace Cert.KernelIdeal.Blocks

open Cert.KernelIdeal Cert.MHA Cert.ReferenceIdeal.Read
open Idealize.ShloMosaic Idealize.ShloMosaic.ValueIdx

variable [Cert.ReferenceIdeal.Facts]

/-- A reshape of a reshape is one reshape. -/
theorem shapeCast_comp {α : Type} {s t u : Shape} (v : s.Idx → α) (h : s.ShapeCasts t) (h' : t.ShapeCasts u) :
    shapeCast u (shapeCast t v h) h' = shapeCast u v (h'.trans h) :=
  funext fun i => congrArg v (Shape.reshapeEquiv_reshapeEquiv h h' i)

/-- Two reshapes of one array agree at indices of the same row-major position. -/
theorem shapeCast_congr {α : Type} {s t t' : Shape} (x : s.Idx → α) (h : s.ShapeCasts t) (h' : s.ShapeCasts t')
    (j : t.Idx) (j' : t'.Idx) (e : (t.rowMajor j).val = (t'.rowMajor j').val) :
    shapeCast t x h j = shapeCast t' x h' j' :=
  congrArg x (Shape.reshapeEquiv_eq_of_rowMajor h ((Shape.rowMajor_reshapeEquiv h' j').trans e.symm))

/-- The projection of re-laid operands is the reference's projection stage, re-laid. -/
theorem linG_eq (X : FVec Ideal S2x2048x1024 .f32) (W : FVec Ideal S1024x1024 .f32) (B : FVec Ideal S1024 .f32)
    (h1 : S2x2048x1024.ShapeCasts S4096x1024) (h2 : S1024x1024.Transposes [1, 0] S1024x1024) (h3 : FTy.bf16.bits < FTy.f32.bits)
    (h4 : S1024.ShapeCasts S1x1024) :
    linG (shapeCast S4096x1024 X h1) (truncf (F := Ideal) .bf16 (transpose S1024x1024 [1, 0] W h2) h3) (shapeCast S1x1024 B h4)
      = shapeCast S4096x1024 (val_main_v3 (F := Ideal) X W B) h1 := by
  funext i
  obtain ⟨r, o, rfl⟩ : ∃ (r : Fin 4096) (o : Fin 1024), i = ix2 r o := ⟨i 0, i 1, eq_ix2 i⟩
  have hr : r.val < 4096 := r.isLt
  have ho : o.val < 1024 := o.isLt
  have e3 : shapeCast S4096x1024 (val_main_v3 (F := Ideal) X W B) h1 (ix2 r o)
      = val_main_v3 (F := Ideal) X W B (ix3 (⟨r.val / 2048, by omega⟩ : Fin 2) (⟨r.val % 2048, by omega⟩ : Fin 2048) o) :=
    shapeCast_apply _ h1 _ _ (by
      rw [Shape.rowMajor_val_three, Shape.rowMajor_val_two]
      show (r.val / 2048 * 2048 + r.val % 2048) * 1024 + o.val = r.val * 1024 + o.val
      omega)
  rw [e3, lin_ref3]
  unfold linG
  have ex : ∀ k : Fin 1024, shapeCast S4096x1024 X h1 (ix2 (⟨(ix2 r o 0).val, (ix2 r o 0).isLt⟩ : Fin 4096) k)
      = X (ix3 (⟨r.val / 2048, by omega⟩ : Fin 2) (⟨r.val % 2048, by omega⟩ : Fin 2048) k) := fun k =>
    shapeCast_apply _ h1 _ _ (by
      rw [Shape.rowMajor_val_three, Shape.rowMajor_val_two]
      show (r.val / 2048 * 2048 + r.val % 2048) * 1024 + k.val = r.val * 1024 + k.val
      omega)
  have ew : ∀ k : Fin 1024, truncf (F := Ideal) .bf16 (transpose S1024x1024 [1, 0] W h2) h3 (ix2 k (⟨(ix2 r o 1).val, (ix2 r o 1).isLt⟩ : Fin 1024))
      = W (ix2 o k) := fun k =>
    transpose_apply [1, 0] W h2 _ _ (fun b => by match b with | ⟨0, _⟩ => rfl | ⟨1, _⟩ => rfl)
  have eb : shapeCast S1x1024 B h4 (ix2 (0 : Fin 1) (⟨(ix2 r o 1).val, (ix2 r o 1).isLt⟩ : Fin 1024)) = B (ix1 o) :=
    shapeCast_apply _ h4 _ _ (by
      rw [Shape.rowMajor_val_one, Shape.rowMajor_val_two]
      show o.val = 0 * 1024 + o.val
      omega)
  simp only [ex, ew, eb]

/-- The reference's three head tensors as one reshape each of a projection stage (the stages' own text). -/
theorem v4_eq (x0 : FVec Ideal S2x2048x1024 .f32) (x3 : FVec Ideal S1024x1024 .f32) (x4 : FVec Ideal S1024 .f32) (h : S2x2048x1024.ShapeCasts S2x16x2048x64) :
    val_main_v4 (F := Ideal) x0 x3 x4 = shapeCast S2x16x2048x64 (val_main_v3 (F := Ideal) x0 x3 x4) h := rfl
theorem v14_eq (x2 : FVec Ideal S2x2048x1024 .f32) (x7 : FVec Ideal S1024x1024 .f32) (x8 : FVec Ideal S1024 .f32) (h : S2x2048x1024.ShapeCasts S2x16x2048x64) :
    val_main_v14 (F := Ideal) x2 x7 x8 = shapeCast S2x16x2048x64 (val_main_v3 (F := Ideal) x2 x7 x8) h := rfl
theorem v15_eq (x1 : FVec Ideal S2x2048x1024 .f32) (x5 : FVec Ideal S1024x1024 .f32) (x6 : FVec Ideal S1024 .f32) (h : S2x2048x1024.ShapeCasts S2x16x64x2048) :
    val_main_v15 (F := Ideal) x1 x5 x6 = shapeCast S2x16x64x2048 (val_main_v3 (F := Ideal) x1 x5 x6) h :=
  shapeCast_comp (val_main_v3 (F := Ideal) x1 x5 x6) Cert.ReferenceIdeal.Facts₀.shapeCasts_S2x2048x1024_S2x16x2048x64 Cert.ReferenceIdeal.Facts₀.shapeCasts_S2x16x2048x64_S2x16x64x2048

/-- The attention of the re-laid projections is the reference's attention stage, re-laid per head-batch. -/
theorem attnG_eq (x0 x1 x2 : FVec Ideal S2x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (hq : S2x2048x1024.ShapeCasts S32x2048x64) (hk : S2x2048x1024.ShapeCasts S32x64x2048) (ho : S2x16x2048x64.ShapeCasts S32x2048x64) :
    attnG (shapeCast S32x2048x64 (val_main_v3 (F := Ideal) x0 x3 x4) hq) (shapeCast S32x64x2048 (val_main_v3 (F := Ideal) x1 x5 x6) hk)
        (shapeCast S32x2048x64 (val_main_v3 (F := Ideal) x2 x7 x8) hq)
      = shapeCast S32x2048x64 (val_main_v30 (F := Ideal) x0 x1 x2 x3 x4 x5 x6 x7 x8) ho := by
  funext i
  obtain ⟨g, l, d, rfl⟩ : ∃ (g : Fin 32) (l : Fin 2048) (d : Fin 64), i = ix3 g l d := ⟨i 0, i 1, i 2, eq_ix3 i⟩
  have hg : g.val < 32 := g.isLt
  have hl : l.val < 2048 := l.isLt
  have hd : d.val < 64 := d.isLt
  have e30 : shapeCast S32x2048x64 (val_main_v30 (F := Ideal) x0 x1 x2 x3 x4 x5 x6 x7 x8) ho (ix3 g l d)
      = val_main_v30 (F := Ideal) x0 x1 x2 x3 x4 x5 x6 x7 x8 (ix4 (⟨g.val / 16, by omega⟩ : Fin 2) (⟨g.val % 16, by omega⟩ : Fin 16) l d) :=
    shapeCast_apply _ ho _ _ (by
      rw [Shape.rowMajor_val_four, Shape.rowMajor_val_three]
      show ((g.val / 16 * 16 + g.val % 16) * 2048 + l.val) * 64 + d.val = (g.val * 2048 + l.val) * 64 + d.val
      omega)
  rw [e30, attn_ref]
  unfold attnG
  have eq : ∀ j : Fin 64, shapeCast S32x2048x64 (val_main_v3 (F := Ideal) x0 x3 x4) hq
        (ix3 (⟨(ix3 g l d 0).val, (ix3 g l d 0).isLt⟩ : Fin 32) (⟨(ix3 g l d 1).val, (ix3 g l d 1).isLt⟩ : Fin 2048) j)
      = val_main_v4 (F := Ideal) x0 x3 x4 (ix4 (⟨g.val / 16, by omega⟩ : Fin 2) (⟨g.val % 16, by omega⟩ : Fin 16) l j) := fun j => by
    have hj : j.val < 64 := j.isLt
    rw [v4_eq x0 x3 x4 Cert.ReferenceIdeal.Facts₀.shapeCasts_S2x2048x1024_S2x16x2048x64]
    exact shapeCast_congr _ _ _ _ _ (by
      rw [Shape.rowMajor_val_four, Shape.rowMajor_val_three]
      show (g.val * 2048 + l.val) * 64 + j.val = ((g.val / 16 * 16 + g.val % 16) * 2048 + l.val) * 64 + j.val
      omega)
  have ek : ∀ (j : Fin 64) (s : Fin 2048), shapeCast S32x64x2048 (val_main_v3 (F := Ideal) x1 x5 x6) hk
        (ix3 (⟨(ix3 g l d 0).val, (ix3 g l d 0).isLt⟩ : Fin 32) j s)
      = val_main_v15 (F := Ideal) x1 x5 x6 (ix4 (⟨g.val / 16, by omega⟩ : Fin 2) (⟨g.val % 16, by omega⟩ : Fin 16) j s) := fun j s => by
    have hj : j.val < 64 := j.isLt
    have hs : s.val < 2048 := s.isLt
    rw [v15_eq x1 x5 x6 (Cert.ReferenceIdeal.Facts₀.shapeCasts_S2x16x2048x64_S2x16x64x2048.trans Cert.ReferenceIdeal.Facts₀.shapeCasts_S2x2048x1024_S2x16x2048x64)]
    exact shapeCast_congr _ _ _ _ _ (by
      rw [Shape.rowMajor_val_four, Shape.rowMajor_val_three]
      show (g.val * 64 + j.val) * 2048 + s.val = ((g.val / 16 * 16 + g.val % 16) * 64 + j.val) * 2048 + s.val
      omega)
  have ev : ∀ s : Fin 2048, shapeCast S32x2048x64 (val_main_v3 (F := Ideal) x2 x7 x8) hq
        (ix3 (⟨(ix3 g l d 0).val, (ix3 g l d 0).isLt⟩ : Fin 32) s (⟨(ix3 g l d 2).val, (ix3 g l d 2).isLt⟩ : Fin 64))
      = val_main_v14 (F := Ideal) x2 x7 x8 (ix4 (⟨g.val / 16, by omega⟩ : Fin 2) (⟨g.val % 16, by omega⟩ : Fin 16) s d) := fun s => by
    have hs : s.val < 2048 := s.isLt
    rw [v14_eq x2 x7 x8 Cert.ReferenceIdeal.Facts₀.shapeCasts_S2x2048x1024_S2x16x2048x64]
    exact shapeCast_congr _ _ _ _ _ (by
      rw [Shape.rowMajor_val_four, Shape.rowMajor_val_three]
      show (g.val * 2048 + s.val) * 64 + d.val = ((g.val / 16 * 16 + g.val % 16) * 2048 + s.val) * 64 + d.val
      omega)
  simp only [eq, ek, ev]

/-- The reference's result stage is the projection stage of its re-laid attention stage (the stages' own text). -/
theorem v35_eq (x0 x1 x2 : FVec Ideal S2x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32) :
    val_main_v35 (F := Ideal) x0 x1 x2 x3 x4 x5 x6 x7 x8 x9 x10
      = val_main_v3 (F := Ideal) (val_main_v31 (F := Ideal) x0 x1 x2 x3 x4 x5 x6 x7 x8) x9 x10 := rfl

/-- `attnG_eq` with each projection still carrying its [4096, 1024] re-laying. -/
theorem attnG_eq' (x0 x1 x2 : FVec Ideal S2x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (h1 : S2x2048x1024.ShapeCasts S4096x1024) (h2 : S4096x1024.ShapeCasts S32x2048x64) (h3 : S4096x1024.ShapeCasts S32x64x2048)
    (ho : S2x16x2048x64.ShapeCasts S32x2048x64) :
    attnG (shapeCast S32x2048x64 (shapeCast S4096x1024 (val_main_v3 (F := Ideal) x0 x3 x4) h1) h2)
        (shapeCast S32x64x2048 (shapeCast S4096x1024 (val_main_v3 (F := Ideal) x1 x5 x6) h1) h3)
        (shapeCast S32x2048x64 (shapeCast S4096x1024 (val_main_v3 (F := Ideal) x2 x7 x8) h1) h2)
      = shapeCast S32x2048x64 (val_main_v30 (F := Ideal) x0 x1 x2 x3 x4 x5 x6 x7 x8) ho := by
  rw [shapeCast_comp, shapeCast_comp, shapeCast_comp]
  exact attnG_eq _ _ _ _ _ _ _ _ _ _ _ _

/-- The last projection of the re-laid attention stage is the reference's result, re-laid. -/
theorem linG_eq4 (x0 x1 x2 : FVec Ideal S2x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32)
    (h1 : S2x2048x1024.ShapeCasts S4096x1024) (ho : S2x16x2048x64.ShapeCasts S32x2048x64) (hc : S32x2048x64.ShapeCasts S4096x1024)
    (h2 : S1024x1024.Transposes [1, 0] S1024x1024) (h3 : FTy.bf16.bits < FTy.f32.bits) (h4 : S1024.ShapeCasts S1x1024) :
    linG (shapeCast S4096x1024 (shapeCast S32x2048x64 (val_main_v30 (F := Ideal) x0 x1 x2 x3 x4 x5 x6 x7 x8) ho) hc)
        (truncf (F := Ideal) .bf16 (transpose S1024x1024 [1, 0] x9 h2) h3) (shapeCast S1x1024 x10 h4)
      = shapeCast S4096x1024 (val_main_v35 (F := Ideal) x0 x1 x2 x3 x4 x5 x6 x7 x8 x9 x10) h1 := by
  rw [shapeCast_comp, v35_eq]
  have e : shapeCast S4096x1024 (val_main_v30 (F := Ideal) x0 x1 x2 x3 x4 x5 x6 x7 x8) (hc.trans ho)
      = shapeCast S4096x1024 (val_main_v31 (F := Ideal) x0 x1 x2 x3 x4 x5 x6 x7 x8) h1 :=
    (shapeCast_comp (val_main_v30 (F := Ideal) x0 x1 x2 x3 x4 x5 x6 x7 x8) Cert.ReferenceIdeal.Facts₀.shapeCasts_S2x16x2048x64_S2x2048x1024 h1).symm
  rw [e]
  exact linG_eq _ _ _ _ _ _ _

end Cert.KernelIdeal.Blocks

end
-- ==== Proof.Arrays.lean ====
/-
  The kernel program's arrays, region by region, against the reference's stages.

  Each projection region finds re-laid argument arrays and leaves the reference's projection stage re-laid as
  [4096, 1024]; the reshapes in between are row-major re-layings, a chain of which is one; the attention region finds
  the three projections re-laid per head-batch and leaves the reference's attention stage re-laid as [32, 2048, 64];
  the last projection leaves the reference's result re-laid, and the final reshape undoes that re-laying.
-/
import proofs.«164350_j43611097924070_2_alg».proof.Proof.Gen.ReferenceIdeal.Read
import proofs.«164350_j43611097924070_2_alg».proof.Proof.Fold
import proofs.«164350_j43611097924070_2_alg».proof.Proof.FoldB
import proofs.«164350_j43611097924070_2_alg».proof.Proof.Region0
import proofs.«164350_j43611097924070_2_alg».proof.Proof.Region1
import proofs.«164350_j43611097924070_2_alg».proof.Proof.Region2
import proofs.«164350_j43611097924070_2_alg».proof.Proof.Region3
import proofs.«164350_j43611097924070_2_alg».proof.Proof.Region4
import proofs.«164350_j43611097924070_2_alg».proof.Proof.Bridge

set_option maxRecDepth 16384

noncomputable section

namespace Cert.KernelIdeal.Whole

open Idealize.ShloMosaic Idealize.ShloMosaic.TcCoe Idealize.SL.Sem
open Cert.KernelIdeal.Blocks Cert.ReferenceIdeal.Read

section Arrays

open Cert.KernelIdeal Cert.KernelIdeal.Gen

variable (m : (ℓ : Loc nD τ sig) → Buf (Elt Ideal) ℓ) (ρ : Dev nD → PrngReg) (c : Dev nD)

/-- The three input projections' arrays are the reference's projection stages, re-laid as [4096, 1024]. -/
theorem y0_eq : Y0 m ρ c = shapeCast S4096x1024 (val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) shapeCasts_S2x2048x1024_S4096x1024 := by
  show (dat0 (V1 m ρ) c).arrAt 3 cfg0.N = _
  rw [final0 (V1 m ρ) c]
  show linG (W1 m ρ c (Proc.devRef .tc main_v0)) (W1 m ρ c (Proc.devRef .tc main_v4)) (W1 m ρ c (Proc.devRef .tc main_v11)) = _
  rw [at1_main_v0, at1_main_v4, at1_main_v11]
  exact linG_eq _ _ _ _ _ _ _
theorem y1_eq : Y1 m ρ c = shapeCast S4096x1024 (val_main_v3 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) shapeCasts_S2x2048x1024_S4096x1024 := by
  show (dat1 (V3 m ρ) c).arrAt 3 cfg1.N = _
  rw [final1 (V3 m ρ) c]
  show linG (W3 m ρ c (Proc.devRef .tc main_v1)) (W3 m ρ c (Proc.devRef .tc main_v6)) (W3 m ρ c (Proc.devRef .tc main_v14)) = _
  rw [at3_main_v1, at3_main_v6, at3_main_v14]
  exact linG_eq _ _ _ _ _ _ _
theorem y2_eq : Y2 m ρ c = shapeCast S4096x1024 (val_main_v3 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) shapeCasts_S2x2048x1024_S4096x1024 := by
  show (dat2 (V5 m ρ) c).arrAt 3 cfg2.N = _
  rw [final2 (V5 m ρ) c]
  show linG (W5 m ρ c (Proc.devRef .tc main_v2)) (W5 m ρ c (Proc.devRef .tc main_v8)) (W5 m ρ c (Proc.devRef .tc main_v17)) = _
  rw [at5_main_v2, at5_main_v8, at5_main_v17]
  exact linG_eq _ _ _ _ _ _ _

/-- The attention region's array is the reference's attention stage, re-laid as [32, 2048, 64]. -/
theorem y3_eq : Y3 m ρ c = shapeCast S32x2048x64 (val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) shapeCasts_S2x16x2048x64_S32x2048x64 := by
  show (dat3 (V7 m ρ) c).arrAt 3 cfg3.N = _
  rw [final3 (V7 m ρ) c]
  show attnG (W7 m ρ c (Proc.devRef .tc main_v24)) (W7 m ρ c (Proc.devRef .tc main_v25)) (W7 m ρ c (Proc.devRef .tc main_v26)) = _
  rw [at7_main_v24, at7_main_v25, at7_main_v26]
  simp only [shapeCast_comp]
  rw [y0_eq, y1_eq, y2_eq]
  exact attnG_eq' _ _ _ _ _ _ _ _ _ _ _ _ _

/-- The last projection's array is the reference's result, re-laid as [4096, 1024]. -/
theorem y4_eq : Y4 m ρ c = shapeCast S4096x1024 (val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) shapeCasts_S2x2048x1024_S4096x1024 := by
  show (dat4 (V9 m ρ) c).arrAt 3 cfg4.N = _
  rw [final4 (V9 m ρ) c]
  show linG (W9 m ρ c (Proc.devRef .tc main_v30)) (W9 m ρ c (Proc.devRef .tc main_v10)) (W9 m ρ c (Proc.devRef .tc main_v31)) = _
  rw [at9_main_v30, at9_main_v10, at9_main_v31]
  simp only [shapeCast_comp]
  rw [y3_eq]
  exact linG_eq4 _ _ _ _ _ _ _ _ _ _ _ _ _ _ _ _ _

/-- The kernel program's result buffer ends at the reference's result function of the argument arrays. -/
theorem result_eq : W11 m ρ c (Proc.devRef .tc main_v33) = val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [at11_main_v33, y4_eq]
  exact shapeCast_shapeCast _ _ _

end Arrays

end Cert.KernelIdeal.Whole

end
-- ==== Proof.lean ====
/-
  Multi-head attention as five kernel regions against its jnp reference, over the extended reals.

  The kernel program projects the three inputs (three regions, each x·Wᵀ + b over [4096, 1024] in four row blocks),
  re-lays the projections per head-batch by row-major reshapes, runs softmax attention (one region, 32 head-batches by
  two query tiles), re-lays the result, and projects once more.  The reference does the same with whole-array
  operations.  At the ideal values the two agree entry by entry:
  * each projection region's output array is the reference's projection stage, re-laid as [4096, 1024] — the kernel
    reads the transposed weight matrix at (k, o), the reference the original at (o, k);
  * the reshapes between the regions are row-major re-layings, and a chain of them is one;
  * the attention region's output array is the reference's attention stage re-laid as [32, 2048, 64]: both compute,
    for a query row, the logits against the keys scaled by 1/8 (the kernel multiplies by 0.125, the reference divides
    by 8: the same on every extended real), their maximum from −∞, the exponentials of the differences, their sum, and
    the normalised weights against a value column;
  * the last projection, re-laid back, is the reference's result.
  No law needing finiteness is used, so the precondition is never opened.  The ideal pass's ledger is empty, so
  there is nothing to restate for the kernel's idealization.
-/
import proofs.«164350_j43611097924070_2_alg».proof.Defs
import proofs.«164350_j43611097924070_2_alg».proof.Proof.Gen.Kernel
import proofs.«164350_j43611097924070_2_alg».proof.Proof.Gen.Kernel.Skeleton
import proofs.«164350_j43611097924070_2_alg».proof.Proof.Gen.Kernel.Launch
import proofs.«164350_j43611097924070_2_alg».proof.Proof.Gen.Kernel.Points
import proofs.«164350_j43611097924070_2_alg».proof.Proof.Gen.Kernel.Frame
import proofs.«164350_j43611097924070_2_alg».proof.Proof.Gen.KernelIdeal
import proofs.«164350_j43611097924070_2_alg».proof.Proof.Gen.KernelIdeal.Skeleton
import proofs.«164350_j43611097924070_2_alg».proof.Proof.Gen.KernelIdeal.Launch
import proofs.«164350_j43611097924070_2_alg».proof.Proof.Gen.KernelIdeal.Points
import proofs.«164350_j43611097924070_2_alg».proof.Proof.Gen.KernelIdeal.Frame
import proofs.«164350_j43611097924070_2_alg».proof.Proof.Gen.ReferenceIdeal
import proofs.«164350_j43611097924070_2_alg».proof.Proof.Gen.ReferenceIdeal.Run
import proofs.«164350_j43611097924070_2_alg».proof.Proof.Gen.ReferenceIdeal.Read
import proofs.«164350_j43611097924070_2_alg».proof.Proof.Gen.Pre_finite_inputs
import proofs.«164350_j43611097924070_2_alg».proof.Proof.KernelRun
import proofs.«164350_j43611097924070_2_alg».proof.Proof.Arrays
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Whole Cert.ReferenceIdeal.Read

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass's ledger is empty: nothing to restate. -/
theorem preserves : Cert.preserves_Kernel_KernelIdeal := trivial

/-- Both programs end with the result at the reference's result function of the (agreeing) argument arrays: the kernel
    program by the fold through its segments read at the result buffer (`result_eq`), the reference by its run. -/
theorem algebraic : Cert.algebraic_KernelIdeal_ReferenceIdeal := by
  intro m ρ m' ρ' _ hagree
  refine ⟨fun c => val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Gen.mem_uc Cert.KernelIdeal.main_v33 (by decide))).trans (result_eq m ρ c),
       (h c _ (Cert.KernelIdeal.Gen.mem_uc Cert.KernelIdeal.main_arg0 (by decide))).trans (Cert.KernelIdeal.Gen.W11_main_arg0 m ρ c),
       (h c _ (Cert.KernelIdeal.Gen.mem_uc Cert.KernelIdeal.main_arg1 (by decide))).trans (Cert.KernelIdeal.Gen.W11_main_arg1 m ρ c),
       (h c _ (Cert.KernelIdeal.Gen.mem_uc Cert.KernelIdeal.main_arg2 (by decide))).trans (Cert.KernelIdeal.Gen.W11_main_arg2 m ρ c),
       (h c _ (Cert.KernelIdeal.Gen.mem_uc Cert.KernelIdeal.main_arg3 (by decide))).trans (Cert.KernelIdeal.Gen.W11_main_arg3 m ρ c),
       (h c _ (Cert.KernelIdeal.Gen.mem_uc Cert.KernelIdeal.main_arg4 (by decide))).trans (Cert.KernelIdeal.Gen.W11_main_arg4 m ρ c),
       (h c _ (Cert.KernelIdeal.Gen.mem_uc Cert.KernelIdeal.main_arg5 (by decide))).trans (Cert.KernelIdeal.Gen.W11_main_arg5 m ρ c),
       (h c _ (Cert.KernelIdeal.Gen.mem_uc Cert.KernelIdeal.main_arg6 (by decide))).trans (Cert.KernelIdeal.Gen.W11_main_arg6 m ρ c),
       (h c _ (Cert.KernelIdeal.Gen.mem_uc Cert.KernelIdeal.main_arg7 (by decide))).trans (Cert.KernelIdeal.Gen.W11_main_arg7 m ρ c),
       (h c _ (Cert.KernelIdeal.Gen.mem_uc Cert.KernelIdeal.main_arg8 (by decide))).trans (Cert.KernelIdeal.Gen.W11_main_arg8 m ρ c),
       (h c _ (Cert.KernelIdeal.Gen.mem_uc Cert.KernelIdeal.main_arg9 (by decide))).trans (Cert.KernelIdeal.Gen.W11_main_arg9 m ρ c),
       (h c _ (Cert.KernelIdeal.Gen.mem_uc Cert.KernelIdeal.main_arg10 (by decide))).trans (Cert.KernelIdeal.Gen.W11_main_arg10 m ρ c)⟩)
      (run_fold m ρ)
  · refine (θ_run Cert.ReferenceIdeal.defs _ _).mono (fun _ h c => ⟨(h c).1.trans ?_, (h c).2⟩)
      (Cert.ReferenceIdeal.Value.run (F := Ideal) m' ρ')
    rw [val_main_v35_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
